-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S2x128x128 : Shape := ⟨3, ![2, 128, 128]⟩
abbrev S2x128x64 : Shape := ⟨3, ![2, 128, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S2x128x128 : S_.BroadcastsInDim S2x128x128 (![] : Fin 0 → Fin S2x128x128.rank)
  reducesTo_S2x128x128_S_d0_1_2 : S2x128x128.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_

variable [Facts]

def fn_part1 {F : FTy → Type} [FloatOps F] (main_v13 : IVec S_ 1) (main_v16 : IVec S2x128x64 1) : IVec S_ 1 :=
  let main_c_5 : IVec S_ 1 := constantI S_ 1 1#1
  let main_v17 : IVec S_ 1 := (fun x v => Host.reduce IntOp.andi x v reducesTo_S2x128x64_S_d0_1_2 h_S_) main_v16 main_c_5
  let main_v18 : IVec S_ 1 := andi main_v13 main_v17
  main_v18

def fn {F : FTy → Type} [FloatOps F] (main_arg0 : FVec F S10000x128 .f32) (main_arg1 : FVec F S2x10000x10000 .f32) (main_arg2 : FVec F S2x128x128 .f32) (main_arg3 : FVec F S2x128x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128x64 .f32 := Host.absf main_arg3
  let main_cst_4 : FVec F S_ .f32 := constant S_ .f32 0x7F800000#32
  let main_v15 : FVec F S2x128x64 .f32 := broadcastInDim S2x128x64 ![] bcast_S_S2x128x64 main_cst_4
  let main_v16 : IVec S2x128x64 1 := cmpf .olt main_v14 main_v15
  fn_part1 (F := F) main_v13 main_v16
-- ==== Kernel.lean ====
abbrev S10000x128 : Shape := ⟨2, ![10000, 128]⟩
abbrev S2x10000x10000 : Shape := ⟨3, ![2, 10000, 10000]⟩
abbrev S2x128x128 : Shape := ⟨3, ![2, 128, 128]⟩
abbrev S2x128x64 : Shape := ⟨3, ![2, 128, 64]⟩
abbrev S10000x64 : Shape := ⟨2, ![10000, 64]⟩
abbrev S2x200x10000 : Shape := ⟨3, ![2, 200, 10000]⟩
abbrev S200x64 : Shape := ⟨2, ![200, 64]⟩
abbrev S2x10000x128 : Shape := ⟨3, ![2, 10000, 128]⟩
abbrev S2x10000x64 : Shape := ⟨3, ![2, 10000, 64]⟩
abbrev S1x128x128 : Shape := ⟨3, ![1, 128, 128]⟩
abbrev S128x128 : Shape := ⟨2, ![128, 128]⟩
abbrev S1x10000x128 : Shape := ⟨3, ![1, 10000, 128]⟩
abbrev S1x200x10000 : Shape := ⟨3, ![1, 200, 10000]⟩
abbrev S200x10000 : Shape := ⟨2, ![200, 10000]⟩
abbrev S200x128 : Shape := ⟨2, ![200, 128]⟩
abbrev S1x128x64 : Shape := ⟨3, ![1, 128, 64]⟩
abbrev S128x64 : Shape := ⟨2, ![128, 64]⟩
abbrev S1x10000x64 : Shape := ⟨3, ![1, 10000, 64]⟩

abbrev nBuf : Space → Nat
  | .hbm => 5
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S2x128x128, .f32⟩
  | .hbm, ⟨3, _⟩ => ⟨S2x128x64, .f32⟩
  | .hbm, ⟨4, _⟩ => ⟨S10000x64, .f32⟩
  | .local _ .vmem, ⟨0, _⟩ => ⟨S2x200x10000, .f32⟩
  | .local _ .vmem, ⟨1, _⟩ => ⟨S2x200x10000, .f32⟩
  | .local _ .vmem, ⟨2, _⟩ => ⟨S10000x128, .f32⟩
  | .local _ .vmem, ⟨3, _⟩ => ⟨S2x128x128, .f32⟩
  | .local _ .vmem, ⟨4, _⟩ => ⟨S2x128x64, .f32⟩
  | .local _ .vmem, ⟨5, _⟩ => ⟨S200x64, .f32⟩
  | .local _ .vmem, ⟨6, _⟩ => ⟨S200x64, .f32⟩
  | .local _ .vmem, ⟨7, _⟩ => ⟨S2x10000x128, .f32⟩
  | .local _ .vmem, ⟨8, _⟩ => ⟨S2x10000x64, .f32⟩
  | .local _ .vmem, ⟨9, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c200_i32 : BitVec 32 := 200#32
  let v26 : BitVec 32 := Scalar.muli arg0 c200_i32
  let v27 : Index := Scalar.indexCast v26
  let c0_18 : Index := 0#32
  ![v27.toNat, 0]
def k0_cond4 (i : grid0.Coords) : BitVec 1 :=
  let arg0 : BitVec 32 := BitVec.ofNat 32 (i 0).val
  let c50_i32_4 : BitVec 32 := 50#32
  let v9 : BitVec 1 := Scalar.cmpi .sge arg0 c50_i32_4
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let c50_i32 : BitVec 32 := 50#32
  let c0_i32 : BitVec 32 := 0#32
  let v0 : BitVec 1 := Scalar.cmpi .eq c50_i32 c0_i32
  let c1_i32 : BitVec 32 := 1#32
  let v1 : BitVec 32 := Scalar.select v0 c1_i32 c50_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2x200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x10000x128_S1x10000x128_0_0_0 : ∀ a, (![0, 0, 0] : Fin 3 → Nat) a + S1x10000x128.size a ≤ S2x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  inb_S2x128x128_S1x128x128_1_0_0 : ∀ a, (![1, 0, 0] : Fin 3 → Nat) a + S1x128x128.size a ≤ S2x128x128.size a
  inb_S2x10000x128_S1x10000x128_1_0_0 : ∀ a, (![1, 0, 0] : Fin 3 → Nat) a + S1x10000x128.size a ≤ S2x10000x128.size a
  inb_S2x200x10000_S1x200x10000_0_0_0 : ∀ a, (![0, 0, 0] : Fin 3 → Nat) a + S1x200x10000.size a ≤ S2x200x10000.size a
  h_S1x200x10000 : 0 < S1x200x10000.numel
  shapeCasts_S1x200x10000_S200x10000 : S1x200x10000.ShapeCasts S200x10000
  inb_S2x200x10000_S1x200x10000_1_0_0 : ∀ a, (![1, 0, 0] : Fin 3 → Nat) a + S1x200x10000.size a ≤ S2x200x10000.size a
  bitsLt_bf16_f32 : FTy.bits .bf16 < FTy.bits .f32
  h_S200x128 : 0 < S200x128.numel
  shapeCasts_S200x128_S200x128 : S200x128.ShapeCasts S200x128
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x10000x64_S1x10000x64_0_0_0 : ∀ a, (![0, 0, 0] : Fin 3 → Nat) a + S1x10000x64.size a ≤ S2x10000x64.size a
  h_S1x10000x64 : 0 < S1x10000x64.numel
  shapeCasts_S1x10000x64_S10000x64 : S1x10000x64.ShapeCasts S10000x64
  shapeCasts_S10000x64_S1x10000x64 : S10000x64.ShapeCasts S1x10000x64
  inb_S2x128x64_S1x128x64_1_0_0 : ∀ a, (![1, 0, 0] : Fin 3 → Nat) a + S1x128x64.size a ≤ S2x128x64.size a
  inb_S2x10000x64_S1x10000x64_1_0_0 : ∀ a, (![1, 0, 0] : Fin 3 → Nat) a + S1x10000x64.size a ≤ S2x10000x64.size a
  inb_S200x64_S200x64_0_0 : ∀ a, (![0, 0] : Fin 2 → Nat) a + S200x64.size a ≤ S200x64.size a
  h_S200x64 : 0 < S200x64.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  hrank0 : 0 < grid0.rank
  k0_off1_inb : ∀ i : grid0.Coords, ∀ (k0_h2 : k0_cond2 i = 1#1), ∀ a, (k0_off1 i) a + S200x128.size a ≤ S10000x128.size a
  k0_off1_packedbf16 : ∀ i : grid0.Coords, ∀ (k0_h2 : k0_cond2 i = 1#1), (Rect.unit (s := S10000x128) (k0_off1 i) S200x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x200x10000.size a ≤ S2x10000x10000.size a
  hwx0_0 : ∀ i : grid0.Coords, EltTy.bits .f32 = 32 ∨ (Rect.block (s := S2x10000x10000) S2x200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128x128.size a ≤ S2x128x128.size a
  hwx0_2 : ∀ i : grid0.Coords, EltTy.bits .f32 = 32 ∨ (Rect.block (s := S2x128x128) S2x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128x64.size a ≤ S2x128x64.size a
  hwx0_3 : ∀ i : grid0.Coords, EltTy.bits .f32 = 32 ∨ (Rect.block (s := S2x128x64) S2x128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x64.size a ≤ S10000x64.size a
  hwx0_4 : ∀ i : grid0.Coords, EltTy.bits .f32 = 32 ∨ (Rect.block (s := S10000x64) S200x64.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg1) S2x200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S2x128x128 : Shape := ⟨3, ![2, 128, 128]⟩
abbrev S2x128x64 : Shape := ⟨3, ![2, 128, 64]⟩
abbrev S_ : Shape := ⟨0, ![]⟩
abbrev S1x10000x10000 : Shape := ⟨3, ![1, 10000, 10000]⟩
abbrev S10000x10000 : Shape := ⟨2, ![10000, 10000]⟩
abbrev S1x128x128 : Shape := ⟨3, ![1, 128, 128]⟩
abbrev S128x128 : Shape := ⟨2, ![128, 128]⟩
abbrev S10000x64 : Shape := ⟨2, ![10000, 64]⟩
abbrev S1x128x64 : Shape := ⟨3, ![1, 128, 64]⟩
abbrev S128x64 : Shape := ⟨2, ![128, 64]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S2x128x128, .f32⟩
  | .hbm, ⟨3, _⟩ => ⟨S2x128x64, .f32⟩
  | .hbm, ⟨4, _⟩ => ⟨S_, .f32⟩
  | .hbm, ⟨5, _⟩ => ⟨S10000x128, .f32⟩
  | .hbm, ⟨6, _⟩ => ⟨S1x10000x10000, .f32⟩
  | .hbm, ⟨7, _⟩ => ⟨S10000x10000, .f32⟩
  | .hbm, ⟨8, _⟩ => ⟨S1x128x128, .f32⟩
  | .hbm, ⟨9, _⟩ => ⟨S128x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S1x10000x10000, .f32⟩
  | .hbm, ⟨14, _⟩ => ⟨S10000x10000, .f32⟩
  | .hbm, ⟨15, _⟩ => ⟨S1x128x128, .f32⟩
  | .hbm, ⟨16, _⟩ => ⟨S128x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x64, .f32⟩
  | .hbm, ⟨25, _⟩ => ⟨S1x10000x10000, .f32⟩
  | .hbm, ⟨26, _⟩ => ⟨S10000x10000, .f32⟩
  | .hbm, ⟨27, _⟩ => ⟨S1x128x64, .f32⟩
  | .hbm, ⟨28, _⟩ => ⟨S128x64, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S1x10000x10000, .f32⟩
  | .hbm, ⟨33, _⟩ => ⟨S10000x10000, .f32⟩
  | .hbm, ⟨34, _⟩ => ⟨S1x128x64, .f32⟩
  | .hbm, ⟨35, _⟩ => ⟨S128x64, .f32⟩
  | .hbm, ⟨36, _⟩ => ⟨S10000x64, .f32⟩
  | .hbm, ⟨37, _⟩ => ⟨S10000x64, .f32⟩
  | .hbm, ⟨38, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  slices_S2x10000x10000_S1x10000x10000_0_0_0 : S2x10000x10000.Slices ![0, 0, 0] S1x10000x10000
  shapeCasts_S1x10000x10000_S10000x10000 : S1x10000x10000.ShapeCasts S10000x10000
  slices_S2x128x128_S1x128x128_0_0_0 : S2x128x128.Slices ![0, 0, 0] S1x128x128
  shapeCasts_S1x128x128_S128x128 : S1x128x128.ShapeCasts S128x128
  slices_S2x10000x10000_S1x10000x10000_1_0_0 : S2x10000x10000.Slices ![1, 0, 0] S1x10000x10000
  slices_S2x128x128_S1x128x128_1_0_0 : S2x128x128.Slices ![1, 0, 0] S1x128x128
  bcast_S_S10000x64 : S_.BroadcastsInDim S10000x64 (![] : Fin 0 → Fin S10000x64.rank)
  slices_S2x128x64_S1x128x64_0_0_0 : S2x128x64.Slices ![0, 0, 0] S1x128x64
  shapeCasts_S1x128x64_S128x64 : S1x128x64.ShapeCasts S128x64
  slices_S2x128x64_S1x128x64_1_0_0 : S2x128x64.Slices ![1, 0, 0] S1x128x64
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.K.Shared.lean ====
/-
  What the hand proof of the kernel's body shares: the four branch conditions of the body as propositions over the grid
  coordinate and their closed forms over the 100 grid points (the first layer's projections are computed at point 0, a
  row block of the hidden activation at each point below 50, the second layer's projections at point 50, a row block of
  the result at each point from 50 on); where the output window is idle and where it is written back; the staging and
  scratch memrefs at a point; and the explicit functions the body's stores leave behind:
  a [2,a,b] buffer stored as two [1,a,b] slabs (`two3`), a unit slab of a [2,a,b] value (`sl3`), and a [10000,128]
  buffer overwritten on 200 consecutive rows (`upd2`).
-/
import proofs.«117537_g30743375904967_cont_9to1_575_9_alg».proof.Proof.Gen.Kernel.Skeleton
import proofs.«117537_g30743375904967_cont_9to1_575_9_alg».proof.Proof.Gen.Kernel.Launch
import proofs.«117537_g30743375904967_cont_9to1_575_9_alg».proof.Proof.Gen.Kernel.Points
import proofs.«117537_g30743375904967_cont_9to1_575_9_alg».proof.Proof.Gen.Kernel.Frame
import Idealize.ShloMosaic.Lib.Pipeline.FrameBody
import Idealize.ShloMosaic.Lib.Ring
import Idealize.ShloMosaic.Lib.Tactic
import Idealize.ShloMosaic.Lib.ValueIdx

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The grid coordinate is 0. -/
abbrev cond1 (i : grid0.Coords) : Prop := (Scalar.cmpi .ne (Scalar.extui (Scalar.cmpi .eq (BitVec.ofNat 32 (i 0).val) 0#32)) 0#32) = 1#1
/-- The grid coordinate is below 50. -/
abbrev cond2 (i : grid0.Coords) : Prop := k0_cond2 i = 1#1
/-- The grid coordinate is 50. -/
abbrev cond3 (i : grid0.Coords) : Prop := (Scalar.cmpi .ne (Scalar.extui (Scalar.cmpi .eq (BitVec.ofNat 32 (i 0).val) 50#32)) 0#32) = 1#1
/-- The grid coordinate is at least 50. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 50 :=
  (by decide +kernel : ∀ t : Fin grid0.N, cond2 (grid0.coords t) ↔ t.val < 50)
theorem hcond3 : ∀ t : Fin cfg0.N, cond3 (grid0.coords t) ↔ t.val = 50 :=
  (by decide +kernel : ∀ t : Fin grid0.N, cond3 (grid0.coords t) ↔ t.val = 50)
theorem hcond4 : ∀ t : Fin cfg0.N, cond4 (grid0.coords t) ↔ 50 ≤ t.val :=
  (by decide +kernel : ∀ t : Fin grid0.N, cond4 (grid0.coords t) ↔ 50 ≤ t.val)

/-- The rows a point below 50 stores of the hidden activation start at 200 times the point. -/
theorem off1_val : ∀ t : Fin cfg0.N, t.val < 50 → k0_off1 (grid0.coords t) 0 = 200 * t.val ∧ k0_off1 (grid0.coords t) 1 = 0 :=
  (by decide +kernel : ∀ t : Fin grid0.N, t.val < 50 → k0_off1 (grid0.coords t) 0 = 200 * t.val ∧ k0_off1 (grid0.coords t) 1 = 0)

/-! ## Where the windows are idle, and where the output is written back -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Below point 50 the body stores nothing into the output window, -/
theorem idleAt_4 : ∀ t : Fin cfg0.N, t.val < 50 → cfg0.idle 4 (grid0.coords t) = true := by decide +kernel
/-- and the pipeline does not write its block back there (the block index stays 0 up to point 50). -/
theorem noFlush_4 : ∀ t : Fin cfg0.N, t.val < 50 → (cfg0.win 4).flush t = false := by decide +kernel
/-- From point 50 on the body stores the whole output block, -/
theorem liveAt_4 : ∀ t : Fin cfg0.N, 50 ≤ t.val → cfg0.idle 4 (grid0.coords t) = false := by decide +kernel
/-- and the pipeline writes it back at each of these points. -/
theorem flush_4 : ∀ t : Fin cfg0.N, 50 ≤ t.val → (cfg0.win 4).flush t = true := by decide +kernel
/-- The output block written back at a point from 50 on is block (point − 50). -/
theorem index_4 : ∀ t : Fin cfg0.N, 50 ≤ t.val → win0_4.index t (0 : Fin 2) = t.val - 50 ∧ win0_4.index t (1 : Fin 2) = 0 :=
  (by decide +kernel : ∀ t : Fin grid0.N, 50 ≤ t.val → win0_4.index t (0 : Fin 2) = t.val - 50 ∧ win0_4.index t (1 : Fin 2) = 0)
/-- The adjacency block fetched at a point is row block (point mod 50). -/
theorem index_0 : ∀ t : Fin cfg0.N, win0_0.index t (0 : Fin 3) = 0 ∧ win0_0.index t (1 : Fin 3) = t.val % 50 ∧ win0_0.index t (2 : Fin 3) = 0 :=
  (by decide +kernel : ∀ t : Fin grid0.N, win0_0.index t (0 : Fin 3) = 0 ∧ win0_0.index t (1 : Fin 3) = t.val % 50 ∧ win0_0.index t (2 : Fin 3) = 0)

/-! ## The memrefs the body is called with -/

abbrev ms0 (t : Fin cfg0.N) : Memref sig .tc .vmem S2x200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x64 .f32 := win0_4.stage (cfg0.slots t 4)
abbrev hs4 (t : Fin cfg0.N) : (ms4 t).IsWhole := hstage0_4 ((cfg0.slots t 4).cast nbuf0_4)
/-- The three scratch operands: the first layer's projections, the second layer's, the hidden activation. -/
abbrev scM0 : Memref sig .tc .vmem S2x10000x128 .f32 := Memref.whole cc0_scratch0
abbrev scM1 : Memref sig .tc .vmem S2x10000x64 .f32 := Memref.whole cc0_scratch1
abbrev scM2 : Memref sig .tc .vmem S10000x128 .bf16 := Memref.whole cc0_scratch2

/-- The class invariant with the three scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the stores leave behind, as explicit functions -/

/-- Slab `p` of a value with a leading axis of extent 2, as a value with a leading axis of extent 1. -/
def sl3 {a b : Nat} {e : EltTy} (p : Fin 2) (x : Vec F ⟨3, ![2, a, b]⟩ e) : Vec F ⟨3, ![1, a, b]⟩ e :=
  fun y => x (ix3 p (y 1) (y 2))

/-- A buffer with a leading axis of extent 2 whose two slabs were stored separately. -/
def two3 {a b : Nat} {e : EltTy} (u v : Vec F ⟨3, ![1, a, b]⟩ e) : Vec F ⟨3, ![2, a, b]⟩ e :=
  fun y => if (y 0).val = 0 then u (ix3 (0 : Fin 1) (y 1) (y 2)) else v (ix3 (0 : Fin 1) (y 1) (y 2))

/-- The first layer's projections as point 0 stores them: both weights applied to the whole feature block. -/
def B0of (x1 : Vec F S10000x128 .f32) (x2 : Vec F S2x128x128 .f32) : Vec F S2x10000x128 .f32 :=
  two3 (k0_pay1 x1 (sl3 0 x2)) (k0_pay2 x1 (sl3 1 x2))

/-- The second layer's projections as point 50 stores them: both weights applied to the whole hidden activation. -/
def B1of (s2 : Vec F S10000x128 .bf16) (x3 : Vec F S2x128x64 .f32) : Vec F S2x10000x64 .f32 :=
  two3 (k0_pay4 s2 (sl3 0 x3)) (k0_pay5 s2 (sl3 1 x3))

/-- A row block of the hidden activation from an adjacency block and the first layer's projections. -/
def hidBlk (x0 : Vec F S2x200x10000 .f32) (s0 : Vec F S2x10000x128 .f32) : Vec F S200x128 .bf16 :=
  k0_pay3 (sl3 0 x0) (sl3 0 s0) (sl3 1 x0) (sl3 1 s0)

/-- A row block of the result from an adjacency block and the second layer's projections. -/
def outBlk (x0 : Vec F S2x200x10000 .f32) (s1 : Vec F S2x10000x64 .f32) : Vec F S200x64 .f32 :=
  k0_pay6 (sl3 0 x0) (sl3 0 s1) (sl3 1 x0) (sl3 1 s1)

/-- The hidden-activation buffer `s` with rows `r0 … r0+199` overwritten by the block `P`. -/
def upd2 (s : Vec F S10000x128 .bf16) (r0 : Nat) (P : Vec F S200x128 .bf16) : Vec F S10000x128 .bf16 :=
  fun y => if h : r0 ≤ (y 0).val ∧ (y 0).val < r0 + 200 then P (ix2 ⟨(y 0).val - r0, by omega⟩ (y 1)) else s y

end Cert.Kernel.Hand

end
-- ==== Proof.K.RunLemAB.lean ====
/-
  Reading back what the body's stores leave, as explicit functions: a load of one unit slab
  of a buffer with a leading axis of extent 2 reads that slab of the contents (`sl3`); a buffer of that form stored
  as its two unit slabs reads as the two payloads side by side (`two3`), and a load of either slab after both stores
  reads that slab's payload; a store of 200 whole rows into the [10000,128] buffer leaves the buffer overwritten on
  those rows and as it was elsewhere (`upd2`). All over an arbitrary view of the buffer and arbitrary prior contents,
  and over any float instance.
-/
import proofs.«117537_g30743375904967_cont_9to1_575_9_alg».proof.Proof.K.Shared
import Idealize.ShloMosaic.Lib.WritesUnit

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## A load of a whole buffer -/

/-- The zero offsets of a rank-2 access, as the constant function. -/
theorem zero2 : (![0, 0] : Fin 2 → Nat) = fun _ => 0 := by
  funext d
  match d with
  | ⟨0, _⟩ => rfl
  | ⟨1, _⟩ => rfl

/-- A load through the whole-shape rectangle at zero offsets of a buffer whose contents read `X` reads `X`. -/
theorem readAt_whole {sg : RefSig} {κ : Kind} {sp : Space} {S : Shape} {e : EltTy}
    (v : View sg κ sp S e) (f : v.ty.Contents (Elt F)) (X : Vec F S e) (hf : v.read (Elt F) f = X)
    (off : Fin S.rank → Nat) (inb : ∀ d, off d + S.size d ≤ S.size d) (hoff : off = fun _ => 0) :
    v.readAt (Elt F) (Rect.unit off S.size inb).toLoadRect f = X := by
  subst hf hoff
  funext x
  rw [View.readAt_apply]
  refine congrArg (v.read (Elt F) f) (funext fun d => Fin.ext ?_)
  show 0 + 1 * (x d).val = (x d).val
  omega

/-! ## A load of one slab -/

/-- A load through the unit slab `p` of a [2,a,b] buffer whose contents read `X` reads slab `p` of `X`. -/
theorem readAt_slab {sg : RefSig} {κ : Kind} {sp : Space} {a b : Nat} {e : EltTy}
    (v : View sg κ sp (⟨3, ![2, a, b]⟩ : Shape) e) (f : v.ty.Contents (Elt F)) (X : Vec F ⟨3, ![2, a, b]⟩ e)
    (hf : v.read (Elt F) f = X) (p : Fin 2) (off : Fin 3 → Nat)
    (inb : ∀ d, off d + (![1, a, b] : Fin 3 → Nat) d ≤ (⟨3, ![2, a, b]⟩ : Shape).size d) (hoff : off = ![p.val, 0, 0]) :
    v.readAt (Elt F) (Rect.unit (s := ⟨3, ![2, a, b]⟩) off ![1, a, b] inb).toLoadRect f = sl3 p X := by
  subst hf hoff
  funext x
  rw [View.readAt_apply]
  unfold sl3
  refine congrArg (v.read (Elt F) f) (funext fun d => Fin.ext ?_)
  match d with
  | ⟨0, _⟩ =>
    have hx : (x 0).val = 0 := Nat.lt_one_iff.mp (x 0).isLt
    show p.val + 1 * (x 0).val = p.val
    omega
  | ⟨1, _⟩ => show 0 + 1 * (x 1).val = (x 1).val; omega
  | ⟨2, _⟩ => show 0 + 1 * (x 2).val = (x 2).val; omega

/-! ## Two slab stores that tile the buffer -/

/-- After the slab-0 store of `u` and then the slab-1 store of `w`, a [2,a,b] buffer reads `two3 u w`. -/
theorem read_two_slabs {sg : RefSig} {κ : Kind} {sp : Space} {a b : Nat} {e : EltTy}
    (v : View sg κ sp (⟨3, ![2, a, b]⟩ : Shape) e) (f : v.ty.Contents (Elt F)) (off0 off1 : Fin 3 → Nat)
    (inb0 : ∀ d, off0 d + (![1, a, b] : Fin 3 → Nat) d ≤ (⟨3, ![2, a, b]⟩ : Shape).size d)
    (inb1 : ∀ d, off1 d + (![1, a, b] : Fin 3 → Nat) d ≤ (⟨3, ![2, a, b]⟩ : Shape).size d)
    (u w : Vec F ⟨3, ![1, a, b]⟩ e) (h0 : off0 = ![0, 0, 0]) (h1 : off1 = ![1, 0, 0]) :
    v.read (Elt F) (v.writes (Elt F) f
        [(⟨Rect.unit (s := ⟨3, ![2, a, b]⟩) off1 ![1, a, b] inb1, w⟩ : View.Piece (Elt F) ⟨3, ![2, a, b]⟩ e),
         ⟨Rect.unit (s := ⟨3, ![2, a, b]⟩) off0 ![1, a, b] inb0, u⟩])
      = two3 u w := by
  funext y
  unfold two3
  have hy0 : (y 0).val < 2 := (y 0).isLt
  by_cases hy : (y 0).val = 0
  · rw [if_pos hy, View.read_writes_cons_unit_of_not_mem v f inb1 w _ y h1 (0 : Fin 3) (Or.inl (by show (y 0).val < 1; omega))]
    refine View.read_writes_cons_unit_of_mem v f inb0 u [] y (ix3 (0 : Fin 1) (y 1) (y 2)) h0 fun d => ?_
    match d with
    | ⟨0, _⟩ => show (y 0).val = 0 + 0; omega
    | ⟨1, _⟩ => show (y 1).val = 0 + (y 1).val; omega
    | ⟨2, _⟩ => show (y 2).val = 0 + (y 2).val; omega
  · rw [if_neg hy]
    refine View.read_writes_cons_unit_of_mem v f inb1 w _ y (ix3 (0 : Fin 1) (y 1) (y 2)) h1 fun d => ?_
    match d with
    | ⟨0, _⟩ => show (y 0).val = 1 + 0; omega
    | ⟨1, _⟩ => show (y 1).val = 0 + (y 1).val; omega
    | ⟨2, _⟩ => show (y 2).val = 0 + (y 2).val; omega

/-- A load of slab `p` after both slab stores reads slab `p` of the two payloads side by side, whatever the
    buffer held before. -/
theorem readCov_two_slabs {sg : RefSig} {κ : Kind} {sp : Space} {a b : Nat} {e : EltTy}
    (v : View sg κ sp (⟨3, ![2, a, b]⟩ : Shape) e) (off0 off1 : Fin 3 → Nat)
    (inb0 : ∀ d, off0 d + (![1, a, b] : Fin 3 → Nat) d ≤ (⟨3, ![2, a, b]⟩ : Shape).size d)
    (inb1 : ∀ d, off1 d + (![1, a, b] : Fin 3 → Nat) d ≤ (⟨3, ![2, a, b]⟩ : Shape).size d)
    (u w : Vec F ⟨3, ![1, a, b]⟩ e) (h0 : off0 = ![0, 0, 0]) (h1 : off1 = ![1, 0, 0])
    (p : Fin 2) (offp : Fin 3 → Nat)
    (inbp : ∀ d, offp d + (![1, a, b] : Fin 3 → Nat) d ≤ (⟨3, ![2, a, b]⟩ : Shape).size d) (hp : offp = ![p.val, 0, 0]) :
    v.readCov
        [(⟨Rect.unit (s := ⟨3, ![2, a, b]⟩) off1 ![1, a, b] inb1, w⟩ : View.Piece (Elt F) ⟨3, ![2, a, b]⟩ e),
         ⟨Rect.unit (s := ⟨3, ![2, a, b]⟩) off0 ![1, a, b] inb0, u⟩]
        (Rect.unit (s := ⟨3, ![2, a, b]⟩) offp ![1, a, b] inbp).toLoadRect
      = sl3 p (two3 u w) :=
  readAt_slab v _ (two3 u w) (read_two_slabs v v.junk off0 off1 inb0 inb1 u w h0 h1) p offp inbp hp

/-- A unit leading coordinate carries nothing: an index of a [1,a,b] shape is its last two coordinates. -/
theorem ix3_unit_eq {a b : Nat} (y : (⟨3, ![1, a, b]⟩ : Shape).Idx) : ix3 (0 : Fin 1) (y 1) (y 2) = y := by
  have hy : (y 0).val = 0 := Nat.lt_one_iff.mp (y 0).isLt
  funext d
  match d with
  | ⟨0, _⟩ => exact Fin.ext hy.symm
  | ⟨1, _⟩ => rfl
  | ⟨2, _⟩ => rfl

/-- Slab 0 of a buffer read as its two slabs side by side is the first payload, -/
theorem sl3_two3_zero {a b : Nat} {e : EltTy} (u w : Vec F ⟨3, ![1, a, b]⟩ e) : sl3 0 (two3 u w) = u := by
  funext y
  show (if ((0 : Fin 2)).val = 0 then u (ix3 (0 : Fin 1) (y 1) (y 2)) else w (ix3 (0 : Fin 1) (y 1) (y 2))) = u y
  exact (if_pos (show ((0 : Fin 2)).val = 0 from rfl)).trans (congrArg u (ix3_unit_eq y))

/-- and slab 1 the second. -/
theorem sl3_two3_one {a b : Nat} {e : EltTy} (u w : Vec F ⟨3, ![1, a, b]⟩ e) : sl3 1 (two3 u w) = w := by
  funext y
  show (if ((1 : Fin 2)).val = 0 then u (ix3 (0 : Fin 1) (y 1) (y 2)) else w (ix3 (0 : Fin 1) (y 1) (y 2))) = w y
  exact (if_neg (show ¬ ((1 : Fin 2)).val = 0 by decide)).trans (congrArg w (ix3_unit_eq y))

/-! ## A store of 200 whole rows -/

/-- The offsets of the row-block store are its row offset and column 0. -/
theorem off1_eq_rows (i : grid0.Coords) : k0_off1 i = ![k0_off1 i 0, 0] := by
  funext d
  match d with
  | ⟨0, _⟩ => rfl
  | ⟨1, _⟩ => rfl

/-- After a store of the block `P` through rows `o … o+199` (all columns) over contents reading `s`, the
    [10000,128] buffer reads `upd2 s o P`. -/
theorem read_rows_upd2 {sg : RefSig} {κ : Kind} {sp : Space} (v : View sg κ sp S10000x128 .bf16)
    (f : v.ty.Contents (Elt F)) (s : Vec F S10000x128 .bf16) (hf : v.read (Elt F) f = s) (off : Fin 2 → Nat) (o : Nat)
    (inb : ∀ d, off d + S200x128.size d ≤ S10000x128.size d) (P : Vec F S200x128 .bf16) (hoff : off = ![o, 0]) :
    v.read (Elt F) (v.writes (Elt F) f [(⟨Rect.unit (s := S10000x128) off S200x128.size inb, P⟩ : View.Piece (Elt F) S10000x128 .bf16)])
      = upd2 s o P := by
  subst hf
  funext y
  rw [View.read_writes_cons_rows v f inb P [] y hoff (W := 200) rfl rfl]
  unfold upd2
  by_cases h : o ≤ (y 0).val ∧ (y 0).val < o + 200
  · rw [dif_pos h, dif_pos h]
    refine congrArg P (funext fun d => Fin.ext ?_)
    match d with
    | ⟨0, _⟩ => rfl
    | ⟨1, _⟩ => show (y 1).val - 0 = (y 1).val; omega
  · rw [dif_neg h, dif_neg h]; rfl

end Cert.Kernel.Hand

end
-- ==== Proof.K.RunA.lean ====
/-
  The body's run at the first grid point: the first and second branches are taken. The first loads the feature block
  and the two weight slabs and stores the two projections as the two slabs of the projection buffer (which it also
  loads before each store, values nobody uses); the second then loads both slabs of the adjacency block and reads
  BACK the two projection slabs just stored, and stores the row block of the hidden activation computed from them
  into 200 rows of the hidden-activation buffer; every other buffer is handed back as it was.
-/
import proofs.«117537_g30743375904967_cont_9to1_575_9_alg».proof.Proof.K.RunLemAB

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runA (c : Dev nD) (i : grid0.Coords)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S2x128x64 .f32) (harg4 : arg4.IsWhole)
    (arg5 : Memref sig .tc .vmem S200x64 .f32) (harg5 : arg5.IsWhole) (arg6 : Memref sig .tc .vmem S2x10000x128 .f32) (harg6 : arg6.IsWhole)
    (arg7 : Memref sig .tc .vmem S2x10000x64 .f32) (harg7 : arg7.IsWhole) (arg8 : Memref sig .tc .vmem S10000x128 .bf16) (harg8 : arg8.IsWhole)
    (hc1 : cond1 i) (hc2 : cond2 i) (hc3 : ¬cond3 i) (hc4 : ¬cond4 i)
    (x0 : Vec F S2x200x10000 .f32) (x1 : Vec F S10000x128 .f32) (x2 : Vec F S2x128x128 .f32) (x3 : Vec F S2x128x64 .f32) (x4 : Vec F S200x64 .f32)
    (s0 : Vec F S2x10000x128 .f32) (s1 : Vec F S2x10000x64 .f32) (s2 : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ owns (c : Thread nD τ) arg6 fullShare (B0of x1 x2) ∗ owns (c : Thread nD τ) arg7 fullShare s1 ∗ owns (c : Thread nD τ) arg8 fullShare (upd2 s2 (k0_off1 i 0) (hidBlk x0 (B0of x1 x2)))) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hg0; obtain rfl := harg7.eq_unread hg1; obtain rfl := harg8.eq_unread hg2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  -- the loads of the first branch read the feature block and the two weight slabs
  have eX : View.readAt (Elt F) arg2.view (Rect.unit (s := S10000x128) ![0, 0] S10000x128.size inb_S10000x128_S10000x128_0_0).toLoadRect (harg2.unread x1) = x1 :=
    readAt_whole arg2.view _ x1 (harg2.read_unread x1) _ _ zero2
  have eW0 : View.readAt (Elt F) arg3.view (Rect.unit (s := S2x128x128) ![0, 0, 0] S1x128x128.size inb_S2x128x128_S1x128x128_0_0_0).toLoadRect (harg3.unread x2) = sl3 0 x2 :=
    readAt_slab arg3.view _ x2 (harg3.read_unread x2) 0 _ _ rfl
  have eW1 : View.readAt (Elt F) arg3.view (Rect.unit (s := S2x128x128) ![1, 0, 0] S1x128x128.size inb_S2x128x128_S1x128x128_1_0_0).toLoadRect (harg3.unread x2) = sl3 1 x2 :=
    readAt_slab arg3.view _ x2 (harg3.read_unread x2) 1 _ _ rfl
  isplitl [G0]
  · iexists _; isplitr
    swap
    · iexact G0
    · ipureintro
      sl_unfold_run_names
      rw [eX, eW0, eW1]
      -- the two slab stores tile the projection buffer
      exact read_two_slabs arg6.view _ _ _ _ _ _ _ rfl rfl
  isplitl [G1]
  · iexists _; isplitr; · ipureintro; exact harg7.read_unread _
    iexact G1
  iexists _; isplitr
  swap
  · iexact G2
  · ipureintro
    sl_unfold_run_names
    rw [eX, eW0, eW1]
    have eA : View.readAt (Elt F) arg1.view (Rect.unit (s := S2x200x10000) ![0, 0, 0] S1x200x10000.size inb_S2x200x10000_S1x200x10000_0_0_0).toLoadRect (harg1.unread x0) = sl3 0 x0 :=
      readAt_slab arg1.view _ x0 (harg1.read_unread x0) 0 _ _ rfl
    have eC : View.readAt (Elt F) arg1.view (Rect.unit (s := S2x200x10000) ![1, 0, 0] S1x200x10000.size inb_S2x200x10000_S1x200x10000_1_0_0).toLoadRect (harg1.unread x0) = sl3 1 x0 :=
      readAt_slab arg1.view _ x0 (harg1.read_unread x0) 1 _ _ rfl
    rw [eA, eC]
    -- the one store overwrites the 200 rows from its row offset,
    refine (read_rows_upd2 arg8.view _ s2 (harg8.read_unread s2) (k0_off1 i) (k0_off1 i 0) _ _ (off1_eq_rows i)).trans ?_
    refine congrArg (upd2 s2 (k0_off1 i 0)) ?_
    -- with the block computed from the projection slabs read back after both stores
    unfold hidBlk B0of
    exact congr (congrArg (k0_pay3 (sl3 0 x0) · (sl3 1 x0)) (readCov_two_slabs arg6.view _ _ _ _ _ _ rfl rfl 0 _ _ rfl))
      (readCov_two_slabs arg6.view _ _ _ _ _ _ rfl rfl 1 _ _ rfl)

end Cert.Kernel.Hand

end
-- ==== Proof.K.RunB.lean ====
/-
  The body's run at a grid point from 1 to 49: only the second branch is taken. It loads both slabs of the adjacency
  block and both slabs of the first layer's projections (which this point does not store into), and stores the row
  block of the hidden activation computed from them into 200 rows of the hidden-activation buffer; every other
  buffer is handed back as it was.
-/
import proofs.«117537_g30743375904967_cont_9to1_575_9_alg».proof.Proof.K.RunLemAB

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runB (c : Dev nD) (i : grid0.Coords)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S2x128x64 .f32) (harg4 : arg4.IsWhole)
    (arg5 : Memref sig .tc .vmem S200x64 .f32) (harg5 : arg5.IsWhole) (arg6 : Memref sig .tc .vmem S2x10000x128 .f32) (harg6 : arg6.IsWhole)
    (arg7 : Memref sig .tc .vmem S2x10000x64 .f32) (harg7 : arg7.IsWhole) (arg8 : Memref sig .tc .vmem S10000x128 .bf16) (harg8 : arg8.IsWhole)
    (hc1 : ¬cond1 i) (hc2 : cond2 i) (hc3 : ¬cond3 i) (hc4 : ¬cond4 i)
    (x0 : Vec F S2x200x10000 .f32) (x1 : Vec F S10000x128 .f32) (x2 : Vec F S2x128x128 .f32) (x3 : Vec F S2x128x64 .f32) (x4 : Vec F S200x64 .f32)
    (s0 : Vec F S2x10000x128 .f32) (s1 : Vec F S2x10000x64 .f32) (s2 : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ owns (c : Thread nD τ) arg6 fullShare s0 ∗ owns (c : Thread nD τ) arg7 fullShare s1 ∗ owns (c : Thread nD τ) arg8 fullShare (upd2 s2 (k0_off1 i 0) (hidBlk x0 s0))) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hg0; obtain rfl := harg7.eq_unread hg1; obtain rfl := harg8.eq_unread hg2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [G0]
  · iexists _; isplitr; · ipureintro; exact harg6.read_unread _
    iexact G0
  isplitl [G1]
  · iexists _; isplitr; · ipureintro; exact harg7.read_unread _
    iexact G1
  iexists _; isplitr
  swap
  · iexact G2
  · ipureintro
    -- the loads read the slabs of the adjacency block and of the projections
    have eA : View.readAt (Elt F) arg1.view (Rect.unit (s := S2x200x10000) ![0, 0, 0] S1x200x10000.size inb_S2x200x10000_S1x200x10000_0_0_0).toLoadRect (harg1.unread x0) = sl3 0 x0 :=
      readAt_slab arg1.view _ x0 (harg1.read_unread x0) 0 _ _ rfl
    have eC : View.readAt (Elt F) arg1.view (Rect.unit (s := S2x200x10000) ![1, 0, 0] S1x200x10000.size inb_S2x200x10000_S1x200x10000_1_0_0).toLoadRect (harg1.unread x0) = sl3 1 x0 :=
      readAt_slab arg1.view _ x0 (harg1.read_unread x0) 1 _ _ rfl
    have eB : View.readAt (Elt F) arg6.view (Rect.unit (s := S2x10000x128) ![0, 0, 0] S1x10000x128.size inb_S2x10000x128_S1x10000x128_0_0_0).toLoadRect (harg6.unread s0) = sl3 0 s0 :=
      readAt_slab arg6.view _ s0 (harg6.read_unread s0) 0 _ _ rfl
    have eD : View.readAt (Elt F) arg6.view (Rect.unit (s := S2x10000x128) ![1, 0, 0] S1x10000x128.size inb_S2x10000x128_S1x10000x128_1_0_0).toLoadRect (harg6.unread s0) = sl3 1 s0 :=
      readAt_slab arg6.view _ s0 (harg6.read_unread s0) 1 _ _ rfl
    rw [eA, eC, eB, eD]
    -- and the one store overwrites the 200 rows from its row offset
    exact read_rows_upd2 arg8.view _ s2 (harg8.read_unread s2) (k0_off1 i) (k0_off1 i 0) _ _ (off1_eq_rows i)

end Cert.Kernel.Hand

end
-- ==== Proof.K.RunLemCD.lean ====
/-
  What one store of a whole buffer leaves, for the body's runs at the grid points from 50 on: the output block is
  stored through the whole-shape rectangle at zero offsets, and then reads as the stored payload whatever the buffer
  held before. (Loads of slabs and of whole buffers, and the two slab stores, are read by the lemmas this module
  imports.)
-/
import proofs.«117537_g30743375904967_cont_9to1_575_9_alg».proof.Proof.K.RunLemAB
import Idealize.ShloMosaic.Lib.Pipeline.Value

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One store of the whole buffer leaves its payload, whatever the buffer held. -/
theorem read_store_whole {sg : RefSig} {κ : Kind} {sp : Space} {S : Shape} {e : EltTy} (v : View sg κ sp S e)
    (f : v.ty.Contents (Elt F)) (off : Fin S.rank → Nat) (inb : ∀ d, off d + S.size d ≤ S.size d) (w : S.Idx → Elt F e)
    (hoff : off = fun _ => 0) :
    v.read (Elt F) (v.writes (Elt F) f [(⟨Rect.unit off S.size inb, w⟩ : View.Piece (Elt F) S e)]) = w :=
  (View.read_writes_eq_canon v f _ (fun y => ⟨_, List.mem_singleton_self _, View.mem_set_unit_zero hoff inb y⟩)).trans
    (View.canon_unit_zero hoff inb w)

end Cert.Kernel.Hand

end
-- ==== Proof.K.RunC.lean ====
/-
  The kernel body's run at grid point 50: the first two branches are skipped; the third loads the whole hidden
  activation and the two slabs of the second layer's weights and stores the second layer's projections as two slabs;
  the fourth loads the two slabs of the adjacency block, reads the two projection slabs back (after the stores),
  loads the output block (a dead load), and stores the whole output block. The projection buffer is left at
  `B1of s2 x3`, the output buffer at `outBlk x0 (B1of s2 x3)`; every other buffer is left as it was. Generic in the
  float instance.
-/
import proofs.«117537_g30743375904967_cont_9to1_575_9_alg».proof.Proof.K.RunLemCD

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two slab payloads of the third branch, over the loads as the run leaves them (the whole hidden activation and
    the two weight slabs, each read off a whole memref), are the slabs of `B1of s2 x3`. -/
theorem B1_of_loads (arg4 : Memref sig .tc .vmem S2x128x64 .f32) (harg4 : arg4.IsWhole)
    (arg8 : Memref sig .tc .vmem S10000x128 .bf16) (harg8 : arg8.IsWhole)
    (x3 : Vec F S2x128x64 .f32) (s2 : Vec F S10000x128 .bf16)
    (inb8 : ∀ a, (![0, 0] : Fin 2 → Nat) a + S10000x128.size a ≤ S10000x128.size a)
    (inb40 : ∀ a, (![0, 0, 0] : Fin 3 → Nat) a + S1x128x64.size a ≤ S2x128x64.size a)
    (inb41 : ∀ a, (![1, 0, 0] : Fin 3 → Nat) a + S1x128x64.size a ≤ S2x128x64.size a) :
    two3 (k0_pay4 (View.readAt (Elt F) arg8.view (Rect.unit (s := S10000x128) ![0, 0] S10000x128.size inb8).toLoadRect (harg8.unread s2))
            (View.readAt (Elt F) arg4.view (Rect.unit (s := S2x128x64) ![0, 0, 0] S1x128x64.size inb40).toLoadRect (harg4.unread x3)))
         (k0_pay5 (View.readAt (Elt F) arg8.view (Rect.unit (s := S10000x128) ![0, 0] S10000x128.size inb8).toLoadRect (harg8.unread s2))
            (View.readAt (Elt F) arg4.view (Rect.unit (s := S2x128x64) ![1, 0, 0] S1x128x64.size inb41).toLoadRect (harg4.unread x3)))
      = B1of s2 x3 := by
  unfold B1of
  refine congr (congrArg two3 ?_) ?_
  · refine congr (congrArg k0_pay4 ?_) ?_
    · exact readAt_whole arg8.view _ s2 (harg8.read_unread s2) ![0, 0] _ zero2
    · exact readAt_slab (a := 128) (b := 64) arg4.view _ x3 (harg4.read_unread x3) 0 ![0, 0, 0] _ rfl
  · refine congr (congrArg k0_pay5 ?_) ?_
    · exact readAt_whole arg8.view _ s2 (harg8.read_unread s2) ![0, 0] _ zero2
    · exact readAt_slab (a := 128) (b := 64) arg4.view _ x3 (harg4.read_unread x3) 1 ![1, 0, 0] _ rfl

set_option maxHeartbeats 1000000 in
theorem runC (c : Dev nD) (i : grid0.Coords)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S2x128x64 .f32) (harg4 : arg4.IsWhole)
    (arg5 : Memref sig .tc .vmem S200x64 .f32) (harg5 : arg5.IsWhole) (arg6 : Memref sig .tc .vmem S2x10000x128 .f32) (harg6 : arg6.IsWhole)
    (arg7 : Memref sig .tc .vmem S2x10000x64 .f32) (harg7 : arg7.IsWhole) (arg8 : Memref sig .tc .vmem S10000x128 .bf16) (harg8 : arg8.IsWhole)
    (hc1 : ¬cond1 i) (hc2 : ¬cond2 i) (hc3 : cond3 i) (hc4 : cond4 i)
    (x0 : Vec F S2x200x10000 .f32) (x1 : Vec F S10000x128 .f32) (x2 : Vec F S2x128x128 .f32) (x3 : Vec F S2x128x64 .f32) (x4 : Vec F S200x64 .f32)
    (s0 : Vec F S2x10000x128 .f32) (s1 : Vec F S2x10000x64 .f32) (s2 : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 (B1of s2 x3))
              ∗ owns (c : Thread nD τ) arg6 fullShare s0 ∗ owns (c : Thread nD τ) arg7 fullShare (B1of s2 x3) ∗ owns (c : Thread nD τ) arg8 fullShare s2) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap
    · iexact H4
    · ipureintro
      sl_unfold_run_names
      refine (read_store_whole arg5.view _ ![0, 0] _ _ zero2).trans ?_
      unfold outBlk
      refine congr (congr (congr (congrArg k0_pay6 ?_) ?_) ?_) ?_
      · exact readAt_slab (a := 200) (b := 10000) arg1.view _ x0 (harg1.read_unread x0) 0 ![0, 0, 0] _ rfl
      · refine (readCov_two_slabs (a := 10000) (b := 64) arg7.view ![0, 0, 0] ![1, 0, 0] _ _ _ _ rfl rfl 0 ![0, 0, 0] _ rfl).trans ?_
        exact congrArg (sl3 0) (B1_of_loads arg4 harg4 arg8 harg8 x3 s2 _ _ _)
      · exact readAt_slab (a := 200) (b := 10000) arg1.view _ x0 (harg1.read_unread x0) 1 ![1, 0, 0] _ rfl
      · refine (readCov_two_slabs (a := 10000) (b := 64) arg7.view ![0, 0, 0] ![1, 0, 0] _ _ _ _ rfl rfl 1 ![1, 0, 0] _ rfl).trans ?_
        exact congrArg (sl3 1) (B1_of_loads arg4 harg4 arg8 harg8 x3 s2 _ _ _)
  isplitl [H5]
  · iexists _; isplitr; · ipureintro; exact harg6.read_unread _
    iexact H5
  isplitl [H6]
  · iexists _; isplitr
    swap
    · iexact H6
    · ipureintro
      sl_unfold_run_names
      refine (read_two_slabs (a := 10000) (b := 64) arg7.view _ ![0, 0, 0] ![1, 0, 0] _ _ _ _ rfl rfl).trans ?_
      exact B1_of_loads arg4 harg4 arg8 harg8 x3 s2 _ _ _
  iexists _; isplitr; · ipureintro; exact harg8.read_unread _
  iexact H7

end Cert.Kernel.Hand

end
-- ==== Proof.K.RunD.lean ====
/-
  The kernel body's run at a grid point after 50 (points 51 to 99): the first three branches are skipped and the fourth
  loads the two slabs of the adjacency block and of the second layer's projections, loads the output block (a dead
  load), and stores the whole output block. The output buffer is left at `outBlk x0 s1`; every other buffer is left as
  it was. Generic in the float instance.
-/
import proofs.«117537_g30743375904967_cont_9to1_575_9_alg».proof.Proof.K.RunLemCD

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runD (c : Dev nD) (i : grid0.Coords)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S2x128x64 .f32) (harg4 : arg4.IsWhole)
    (arg5 : Memref sig .tc .vmem S200x64 .f32) (harg5 : arg5.IsWhole) (arg6 : Memref sig .tc .vmem S2x10000x128 .f32) (harg6 : arg6.IsWhole)
    (arg7 : Memref sig .tc .vmem S2x10000x64 .f32) (harg7 : arg7.IsWhole) (arg8 : Memref sig .tc .vmem S10000x128 .bf16) (harg8 : arg8.IsWhole)
    (hc1 : ¬cond1 i) (hc2 : ¬cond2 i) (hc3 : ¬cond3 i) (hc4 : cond4 i)
    (x0 : Vec F S2x200x10000 .f32) (x1 : Vec F S10000x128 .f32) (x2 : Vec F S2x128x128 .f32) (x3 : Vec F S2x128x64 .f32) (x4 : Vec F S200x64 .f32)
    (s0 : Vec F S2x10000x128 .f32) (s1 : Vec F S2x10000x64 .f32) (s2 : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 s1)
              ∗ owns (c : Thread nD τ) arg6 fullShare s0 ∗ owns (c : Thread nD τ) arg7 fullShare s1 ∗ owns (c : Thread nD τ) arg8 fullShare s2) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap
    · iexact H4
    · ipureintro
      refine (read_store_whole arg5.view _ ![0, 0] _ _ zero2).trans ?_
      unfold outBlk
      refine congr (congr (congr (congrArg k0_pay6 ?_) ?_) ?_) ?_
      · exact readAt_slab (a := 200) (b := 10000) arg1.view _ x0 (harg1.read_unread x0) 0 ![0, 0, 0] _ rfl
      · exact readAt_slab (a := 10000) (b := 64) arg7.view _ s1 (harg7.read_unread s1) 0 ![0, 0, 0] _ rfl
      · exact readAt_slab (a := 200) (b := 10000) arg1.view _ x0 (harg1.read_unread x0) 1 ![1, 0, 0] _ rfl
      · exact readAt_slab (a := 10000) (b := 64) arg7.view _ s1 (harg7.read_unread s1) 1 ![1, 0, 0] _ rfl
  isplitl [H5]
  · iexists _; isplitr; · ipureintro; exact harg6.read_unread _
    iexact H5
  isplitl [H6]
  · iexists _; isplitr; · ipureintro; exact harg7.read_unread _
    iexact H6
  iexists _; isplitr; · ipureintro; exact harg8.read_unread _
  iexact H7

end Cert.Kernel.Hand

end
-- ==== Proof.K.Data.lean ====
/-
  The kernel's run over its 100 grid points, for any float instance.

  Proof data: each input window's staging buffer holds its block at every point; the output window's buffer, from
  point 50 on, holds the row block of the result computed from the adjacency block fetched there and the second
  layer's projections. The invariant between points: before point 0 nothing is known of the scratch buffers; before a
  point n with 1 ≤ n ≤ 50 the first scratch holds the first layer's projections (stored at point 0) and the hidden-
  activation scratch agrees with the whole hidden activation on its first 200·n rows (each point below 50 stores
  200 rows of it); before a point n > 50 the second scratch holds the second layer's projections (stored at point 50
  from the by then complete hidden activation). Each point's body is one of four runs.
-/
import proofs.«117537_g30743375904967_cont_9to1_575_9_alg».proof.Proof.K.RunA
import proofs.«117537_g30743375904967_cont_9to1_575_9_alg».proof.Proof.K.RunB
import proofs.«117537_g30743375904967_cont_9to1_575_9_alg».proof.Proof.K.RunC
import proofs.«117537_g30743375904967_cont_9to1_575_9_alg».proof.Proof.K.RunD

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the run passes through -/

/-- The first and the fifty-first grid point. -/
abbrev t0 : Fin cfg0.N := ⟨0, by decide⟩
abbrev t50 : Fin cfg0.N := ⟨50, by decide⟩

/-- The first layer's projections, as point 0 leaves them in the first scratch. -/
def S0 (c : Dev nD) : Vec F S2x10000x128 .f32 := B0of (iblk m c 1 t0) (iblk m c 2 t0)

/-- The row block of the hidden activation a point computes from the adjacency block it is handed. -/
def hid (c : Dev nD) (t : Fin cfg0.N) : Vec F S200x128 .bf16 := hidBlk (iblk m c 0 t) (S0 m c)

/-- The whole hidden activation: row r is row (r mod 200) of the block point (r div 200) computes. -/
def HidFull (c : Dev nD) : Vec F S10000x128 .bf16 := fun y =>
  hid m c ⟨(y 0).val / 200, by have := idx2_lt0 y; have : cfg0.N = 100 := N_0; omega⟩ (ix2 ⟨(y 0).val % 200, Nat.mod_lt _ (by decide)⟩ (y 1))

/-- The second layer's projections, as point 50 leaves them in the second scratch. -/
def S1 (c : Dev nD) : Vec F S2x10000x64 .f32 := B1of (HidFull m c) (iblk m c 3 t50)

/-- The row block of the result a point from 50 on leaves in the output window's buffer. -/
def O (c : Dev nD) (t : Fin cfg0.N) : Vec F S200x64 .f32 := outBlk (iblk m c 0 t) (S1 m c)

/-- `f` agrees with `H` on the first `200 · n` rows. -/
def UptoRows (H : Vec F S10000x128 .bf16) (n : ℕ) (f : Vec F S10000x128 .bf16) : Prop :=
  ∀ y : S10000x128.Idx, (y 0).val < 200 * n → f y = H y

/-- Overwriting rows 200·n … 200·n+199 with what `H` holds there extends the agreement by one block. -/
theorem uptoRows_step (H f : Vec F S10000x128 .bf16) (n : ℕ) (P : Vec F S200x128 .bf16) (hprev : UptoRows H n f)
    (hP : ∀ (y : S10000x128.Idx) (h : 200 * n ≤ (y 0).val ∧ (y 0).val < 200 * n + 200), P (ix2 ⟨(y 0).val - 200 * n, by omega⟩ (y 1)) = H y) :
    UptoRows H (n + 1) (upd2 f (200 * n) P) := by
  intro y hy
  unfold upd2
  split_ifs with h
  · exact hP y h
  · exact hprev y (by omega)

/-- The block point `t` computes is the whole hidden activation on rows 200·t … 200·t+199. -/
theorem hid_eq_full (c : Dev nD) (t : Fin cfg0.N) (y : S10000x128.Idx) (h : 200 * t.val ≤ (y 0).val ∧ (y 0).val < 200 * t.val + 200) :
    hid m c t (ix2 ⟨(y 0).val - 200 * t.val, by omega⟩ (y 1)) = HidFull m c y := by
  unfold HidFull
  have e1 : (⟨(y 0).val / 200, by have := idx2_lt0 y; have : cfg0.N = 100 := N_0; omega⟩ : Fin cfg0.N) = t := Fin.ext (by show (y 0).val / 200 = t.val; omega)
  have e2 : (⟨(y 0).val % 200, Nat.mod_lt _ (by decide)⟩ : Fin 200) = ⟨(y 0).val - 200 * t.val, by omega⟩ := Fin.ext (by show (y 0).val % 200 = (y 0).val - 200 * t.val; omega)
  rw [e1, e2]

/-- Agreement on all 10000 rows is equality. -/
theorem eq_of_uptoRows (H f : Vec F S10000x128 .bf16) (h : UptoRows H 50 f) : f = H :=
  funext fun y => h y (by have := idx2_lt0 y; omega)

/-! ## The invariant between points -/

/-- Before position `n`. -/
def PhiS (c : Dev nD) (n : ℕ) : sProp 𝕄 :=
  if n = 0 then Pipeline.ΦA spec0 c
  else if n ≤ 50 then
    iprop(iprop(owns (c : Thread nD τ) scM0 fullShare (S0 m c) ∗ (∃ d, owns (c : Thread nD τ) scM1 fullShare d)
      ∗ (∃ f, owns (c : Thread nD τ) scM2 fullShare f ∗ ⌜UptoRows (HidFull m c) n f⌝)) ∗ (∃ r, prngReg c r))
  else
    iprop(iprop((∃ d, owns (c : Thread nD τ) scM0 fullShare d) ∗ owns (c : Thread nD τ) scM1 fullShare (S1 m c)
      ∗ (∃ d, owns (c : Thread nD τ) scM2 fullShare d)) ∗ (∃ r, prngReg c r))

theorem PhiS_zero (c : Dev nD) (n : ℕ) (hz : n = 0) : PhiS m c n = Pipeline.ΦA spec0 c := by
  unfold PhiS; rw [if_pos hz]

theorem PhiS_lo (c : Dev nD) (n : ℕ) (h0 : n ≠ 0) (h : n ≤ 50) :
    PhiS m c n = iprop(iprop(owns (c : Thread nD τ) scM0 fullShare (S0 m c) ∗ (∃ d, owns (c : Thread nD τ) scM1 fullShare d)
      ∗ (∃ f, owns (c : Thread nD τ) scM2 fullShare f ∗ ⌜UptoRows (HidFull m c) n f⌝)) ∗ (∃ r, prngReg c r)) := by
  unfold PhiS; rw [if_neg h0, if_pos h]

theorem PhiS_hi (c : Dev nD) (n : ℕ) (h : 50 < n) :
    PhiS m c n = iprop(iprop((∃ d, owns (c : Thread nD τ) scM0 fullShare d) ∗ owns (c : Thread nD τ) scM1 fullShare (S1 m c)
      ∗ (∃ d, owns (c : Thread nD τ) scM2 fullShare d)) ∗ (∃ r, prngReg c r)) := by
  unfold PhiS; rw [if_neg (by omega), if_neg (by omega)]

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => O m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = O m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The five windows' buffers as the body leaves them at a point below 50 (the output window idle there). -/
theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t) := by
  refine ⟨?_, ?_, ?_, ?_⟩
  · unfold Dat.leavesExact; rw [liveAt_0 t, after_0]
  · unfold Dat.leavesExact; rw [liveAt_1 t, after_1]
  · unfold Dat.leavesExact; rw [liveAt_2 t, after_2]
  · unfold Dat.leavesExact; rw [liveAt_3 t, after_3]

theorem leaves_out (c : Dev nD) (t : Fin cfg0.N) (h : 50 ≤ t.val) :
    (dats m 0 c).leavesExact 4 t = owns (c : Thread nD τ) (ms4 t) fullShare (O m c t) := by
  unfold Dat.leavesExact; rw [liveAt_4 t h, after_4]

set_option maxHeartbeats 4800000 in
/-- The body at any point: which of the four runs applies is decided by the point's position; the invariant hands
    the run the scratch buffers' contents and takes them back as the run leaves them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 100 := lt_of_lt_of_eq t.isLt (show cfg0.N = 100 from N_0)
  rw [(leaves_in m c t).1, (leaves_in m c t).2.1, (leaves_in m c t).2.2.1, (leaves_in m c t).2.2.2]
  by_cases h50 : t.val < 50
  · rw [Dat.leavesExact_idle (dats m 0 c) 4 t (idleAt_4 t h50) (noFlush_4 t h50)]
    rw [PhiS_lo m c (t.val + 1) (by omega) (by omega)]
    have hoff : k0_off1 (grid0.coords t) 0 = 200 * t.val := (off1_val t h50).1
    by_cases hz : t.val = 0
    · rw [PhiS_zero m c _ hz, PhiA0_eq]
      iintro ⟨⟨⟨⟨%d0, HS0⟩, ⟨%d1, HS1⟩, ⟨%d2, HS2⟩⟩, Hg⟩, Ho, ⟨%e0, H0⟩, ⟨%e1, H1⟩, ⟨%e2, H2⟩, ⟨%e3, H3⟩, ⟨%e4, H4⟩⟩
      iapply (runA c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _)
        ((hcond1 t).mpr hz) ((hcond2 t).mpr h50) (fun h => by have := (hcond3 t).mp h; omega) (fun h => by have := (hcond4 t).mp h; omega)
        (iblk m c 0 t) (iblk m c 1 t) (iblk m c 2 t) (iblk m c 3 t) _ d0 d1 d2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      have ht : t = t0 := Fin.ext hz
      isplitl [HS0 HS1 HS2 Hg]
      · isplitl [HS0 HS1 HS2]
        · isplitl [HS0]
          · rw [ht]; iexact HS0
          isplitl [HS1]
          · iexists _; iexact HS1
          iexists _; isplitl [HS2]
          · iexact HS2
          ipureintro
          rw [hoff]
          have hS : B0of (iblk m c 1 t) (iblk m c 2 t) = S0 m c := by rw [ht]; rfl
          rw [hS]
          exact uptoRows_step (HidFull m c) d2 t.val (hid m c t) (fun y hy => by omega) (fun y h => hid_eq_full m c t y h)
        iexact Hg
      isplitl [Ho]; · iexact Ho
      isplitl [H0]; · iexact H0
      isplitl [H1]; · iexact H1
      isplitl [H2]; · iexact H2
      isplitl [H3]; · iexact H3
      iexists _; iexact H4
    · rw [PhiS_lo m c t.val hz (by omega)]
      iintro ⟨⟨⟨HS0, ⟨%d1, HS1⟩, ⟨%d2, HS2, %hd2⟩⟩, Hg⟩, Ho, ⟨%e0, H0⟩, ⟨%e1, H1⟩, ⟨%e2, H2⟩, ⟨%e3, H3⟩, ⟨%e4, H4⟩⟩
      iapply (runB c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _)
        (fun h => hz ((hcond1 t).mp h)) ((hcond2 t).mpr h50) (fun h => by have := (hcond3 t).mp h; omega) (fun h => by have := (hcond4 t).mp h; omega)
        (iblk m c 0 t) (iblk m c 1 t) (iblk m c 2 t) (iblk m c 3 t) _ (S0 m c) d1 d2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]
          · iexact HS0
          isplitl [HS1]
          · iexists _; iexact HS1
          iexists _; isplitl [HS2]
          · iexact HS2
          ipureintro
          rw [hoff]
          exact uptoRows_step (HidFull m c) d2 t.val (hid m c t) hd2 (fun y h => hid_eq_full m c t y h)
        iexact Hg
      isplitl [Ho]; · iexact Ho
      isplitl [H0]; · iexact H0
      isplitl [H1]; · iexact H1
      isplitl [H2]; · iexact H2
      isplitl [H3]; · iexact H3
      iexists _; iexact H4
  · have h50' : 50 ≤ t.val := by omega
    rw [leaves_out m c t h50']
    rw [PhiS_hi m c (t.val + 1) (by omega)]
    by_cases hz : t.val = 50
    · rw [PhiS_lo m c t.val (by omega) (by omega)]
      iintro ⟨⟨⟨HS0, ⟨%d1, HS1⟩, ⟨%d2, HS2, %hd2⟩⟩, Hg⟩, Ho, ⟨%e0, H0⟩, ⟨%e1, H1⟩, ⟨%e2, H2⟩, ⟨%e3, H3⟩, ⟨%e4, H4⟩⟩
      have hd : d2 = HidFull m c := eq_of_uptoRows (HidFull m c) d2 (by rw [hz] at hd2; exact hd2)
      subst hd
      iapply (runC c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _)
        (fun h => by have := (hcond1 t).mp h; omega) (fun h => by have := (hcond2 t).mp h; omega) ((hcond3 t).mpr hz) ((hcond4 t).mpr h50')
        (iblk m c 0 t) (iblk m c 1 t) (iblk m c 2 t) (iblk m c 3 t) _ (S0 m c) d1 (HidFull m c) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      have ht : t = t50 := Fin.ext hz
      have hS : B1of (HidFull m c) (iblk m c 3 t) = S1 m c := by rw [ht]; rfl
      rw [hS]
      isplitl [HS0 HS1 HS2 Hg]
      · isplitl [HS0 HS1 HS2]
        · isplitl [HS0]
          · iexists _; iexact HS0
          isplitl [HS1]
          · iexact HS1
          iexists _; iexact HS2
        iexact Hg
      isplitl [Ho]; · iexact Ho
      isplitl [H0]; · iexact H0
      isplitl [H1]; · iexact H1
      isplitl [H2]; · iexact H2
      isplitl [H3]; · iexact H3
      iexact H4
    · rw [PhiS_hi m c t.val (by omega)]
      iintro ⟨⟨⟨⟨%d0, HS0⟩, HS1, ⟨%d2, HS2⟩⟩, Hg⟩, Ho, ⟨%e0, H0⟩, ⟨%e1, H1⟩, ⟨%e2, H2⟩, ⟨%e3, H3⟩, ⟨%e4, H4⟩⟩
      iapply (runD c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _)
        (fun h => by have := (hcond1 t).mp h; omega) (fun h => by have := (hcond2 t).mp h; omega) (fun h => hz ((hcond3 t).mp h)) ((hcond4 t).mpr h50')
        (iblk m c 0 t) (iblk m c 1 t) (iblk m c 2 t) (iblk m c 3 t) _ d0 (S1 m c) d2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]
          · iexists _; iexact HS0
          isplitl [HS1]
          · iexact HS1
          iexists _; iexact HS2
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_hi m c _ (by rw [Fin.val_last]; have : cfg0.N = 100 := N_0; omega), PhiA0_eq]
  iintro ⟨⟨HS0, HS1, HS2⟩, Hg⟩
  isplitl [HS0 HS1 HS2]
  · isplitl [HS0]; · iexact HS0
    isplitl [HS1]; · iexists _; iexact HS1
    iexact HS2
  iexact Hg

/-! ## The run and the frame -/

set_option backward.isDefEq.respectTransparency.types false in
/-- Every weakly fair execution of @main terminates, and every final state has every array of the pipeline at what
    the proof data say and every other unscoped buffer as at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates, faults nowhere and leaves the four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KI.Shared.lean ====
/-
  What the hand proof of the kernel's body shares: the four branch conditions of the body as propositions over the grid
  coordinate and their closed forms over the 100 grid points (the first layer's projections are computed at point 0, a
  row block of the hidden activation at each point below 50, the second layer's projections at point 50, a row block of
  the result at each point from 50 on); where the output window is idle and where it is written back; the staging and
  scratch memrefs at a point; and the explicit functions the body's stores leave behind:
  a [2,a,b] buffer stored as two [1,a,b] slabs (`two3`), a unit slab of a [2,a,b] value (`sl3`), and a [10000,128]
  buffer overwritten on 200 consecutive rows (`upd2`).
-/
import proofs.«117537_g30743375904967_cont_9to1_575_9_alg».proof.Proof.Gen.KernelIdeal.Skeleton
import proofs.«117537_g30743375904967_cont_9to1_575_9_alg».proof.Proof.Gen.KernelIdeal.Launch
import proofs.«117537_g30743375904967_cont_9to1_575_9_alg».proof.Proof.Gen.KernelIdeal.Points
import proofs.«117537_g30743375904967_cont_9to1_575_9_alg».proof.Proof.Gen.KernelIdeal.Frame
import Idealize.ShloMosaic.Lib.Pipeline.FrameBody
import Idealize.ShloMosaic.Lib.Ring
import Idealize.ShloMosaic.Lib.Tactic
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The grid coordinate is 0. -/
abbrev cond1 (i : grid0.Coords) : Prop := (Scalar.cmpi .ne (Scalar.extui (Scalar.cmpi .eq (BitVec.ofNat 32 (i 0).val) 0#32)) 0#32) = 1#1
/-- The grid coordinate is below 50. -/
abbrev cond2 (i : grid0.Coords) : Prop := k0_cond2 i = 1#1
/-- The grid coordinate is 50. -/
abbrev cond3 (i : grid0.Coords) : Prop := (Scalar.cmpi .ne (Scalar.extui (Scalar.cmpi .eq (BitVec.ofNat 32 (i 0).val) 50#32)) 0#32) = 1#1
/-- The grid coordinate is at least 50. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 50 :=
  (by decide +kernel : ∀ t : Fin grid0.N, cond2 (grid0.coords t) ↔ t.val < 50)
theorem hcond3 : ∀ t : Fin cfg0.N, cond3 (grid0.coords t) ↔ t.val = 50 :=
  (by decide +kernel : ∀ t : Fin grid0.N, cond3 (grid0.coords t) ↔ t.val = 50)
theorem hcond4 : ∀ t : Fin cfg0.N, cond4 (grid0.coords t) ↔ 50 ≤ t.val :=
  (by decide +kernel : ∀ t : Fin grid0.N, cond4 (grid0.coords t) ↔ 50 ≤ t.val)

/-- The rows a point below 50 stores of the hidden activation start at 200 times the point. -/
theorem off1_val : ∀ t : Fin cfg0.N, t.val < 50 → k0_off1 (grid0.coords t) 0 = 200 * t.val ∧ k0_off1 (grid0.coords t) 1 = 0 :=
  (by decide +kernel : ∀ t : Fin grid0.N, t.val < 50 → k0_off1 (grid0.coords t) 0 = 200 * t.val ∧ k0_off1 (grid0.coords t) 1 = 0)

/-! ## Where the windows are idle, and where the output is written back -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Below point 50 the body stores nothing into the output window, -/
theorem idleAt_4 : ∀ t : Fin cfg0.N, t.val < 50 → cfg0.idle 4 (grid0.coords t) = true := by decide +kernel
/-- and the pipeline does not write its block back there (the block index stays 0 up to point 50). -/
theorem noFlush_4 : ∀ t : Fin cfg0.N, t.val < 50 → (cfg0.win 4).flush t = false := by decide +kernel
/-- From point 50 on the body stores the whole output block, -/
theorem liveAt_4 : ∀ t : Fin cfg0.N, 50 ≤ t.val → cfg0.idle 4 (grid0.coords t) = false := by decide +kernel
/-- and the pipeline writes it back at each of these points. -/
theorem flush_4 : ∀ t : Fin cfg0.N, 50 ≤ t.val → (cfg0.win 4).flush t = true := by decide +kernel
/-- The output block written back at a point from 50 on is block (point − 50). -/
theorem index_4 : ∀ t : Fin cfg0.N, 50 ≤ t.val → win0_4.index t (0 : Fin 2) = t.val - 50 ∧ win0_4.index t (1 : Fin 2) = 0 :=
  (by decide +kernel : ∀ t : Fin grid0.N, 50 ≤ t.val → win0_4.index t (0 : Fin 2) = t.val - 50 ∧ win0_4.index t (1 : Fin 2) = 0)
/-- The adjacency block fetched at a point is row block (point mod 50). -/
theorem index_0 : ∀ t : Fin cfg0.N, win0_0.index t (0 : Fin 3) = 0 ∧ win0_0.index t (1 : Fin 3) = t.val % 50 ∧ win0_0.index t (2 : Fin 3) = 0 :=
  (by decide +kernel : ∀ t : Fin grid0.N, win0_0.index t (0 : Fin 3) = 0 ∧ win0_0.index t (1 : Fin 3) = t.val % 50 ∧ win0_0.index t (2 : Fin 3) = 0)

/-! ## The memrefs the body is called with -/

abbrev ms0 (t : Fin cfg0.N) : Memref sig .tc .vmem S2x200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x64 .f32 := win0_4.stage (cfg0.slots t 4)
abbrev hs4 (t : Fin cfg0.N) : (ms4 t).IsWhole := hstage0_4 ((cfg0.slots t 4).cast nbuf0_4)
/-- The three scratch operands: the first layer's projections, the second layer's, the hidden activation. -/
abbrev scM0 : Memref sig .tc .vmem S2x10000x128 .f32 := Memref.whole cc0_scratch0
abbrev scM1 : Memref sig .tc .vmem S2x10000x64 .f32 := Memref.whole cc0_scratch1
abbrev scM2 : Memref sig .tc .vmem S10000x128 .bf16 := Memref.whole cc0_scratch2

/-- The class invariant with the three scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the stores leave behind, as explicit functions -/

/-- Slab `p` of a value with a leading axis of extent 2, as a value with a leading axis of extent 1. -/
def sl3 {a b : Nat} {e : EltTy} (p : Fin 2) (x : Vec F ⟨3, ![2, a, b]⟩ e) : Vec F ⟨3, ![1, a, b]⟩ e :=
  fun y => x (ix3 p (y 1) (y 2))

/-- A buffer with a leading axis of extent 2 whose two slabs were stored separately. -/
def two3 {a b : Nat} {e : EltTy} (u v : Vec F ⟨3, ![1, a, b]⟩ e) : Vec F ⟨3, ![2, a, b]⟩ e :=
  fun y => if (y 0).val = 0 then u (ix3 (0 : Fin 1) (y 1) (y 2)) else v (ix3 (0 : Fin 1) (y 1) (y 2))

/-- The first layer's projections as point 0 stores them: both weights applied to the whole feature block. -/
def B0of (x1 : Vec F S10000x128 .f32) (x2 : Vec F S2x128x128 .f32) : Vec F S2x10000x128 .f32 :=
  two3 (k0_pay1 x1 (sl3 0 x2)) (k0_pay2 x1 (sl3 1 x2))

/-- The second layer's projections as point 50 stores them: both weights applied to the whole hidden activation. -/
def B1of (s2 : Vec F S10000x128 .bf16) (x3 : Vec F S2x128x64 .f32) : Vec F S2x10000x64 .f32 :=
  two3 (k0_pay4 s2 (sl3 0 x3)) (k0_pay5 s2 (sl3 1 x3))

/-- A row block of the hidden activation from an adjacency block and the first layer's projections. -/
def hidBlk (x0 : Vec F S2x200x10000 .f32) (s0 : Vec F S2x10000x128 .f32) : Vec F S200x128 .bf16 :=
  k0_pay3 (sl3 0 x0) (sl3 0 s0) (sl3 1 x0) (sl3 1 s0)

/-- A row block of the result from an adjacency block and the second layer's projections. -/
def outBlk (x0 : Vec F S2x200x10000 .f32) (s1 : Vec F S2x10000x64 .f32) : Vec F S200x64 .f32 :=
  k0_pay6 (sl3 0 x0) (sl3 0 s1) (sl3 1 x0) (sl3 1 s1)

/-- The hidden-activation buffer `s` with rows `r0 … r0+199` overwritten by the block `P`. -/
def upd2 (s : Vec F S10000x128 .bf16) (r0 : Nat) (P : Vec F S200x128 .bf16) : Vec F S10000x128 .bf16 :=
  fun y => if h : r0 ≤ (y 0).val ∧ (y 0).val < r0 + 200 then P (ix2 ⟨(y 0).val - r0, by omega⟩ (y 1)) else s y

end Cert.KernelIdeal.Hand

end
-- ==== Proof.KI.RunLemAB.lean ====
/-
  Reading back what the body's stores leave, as explicit functions: a load of one unit slab
  of a buffer with a leading axis of extent 2 reads that slab of the contents (`sl3`); a buffer of that form stored
  as its two unit slabs reads as the two payloads side by side (`two3`), and a load of either slab after both stores
  reads that slab's payload; a store of 200 whole rows into the [10000,128] buffer leaves the buffer overwritten on
  those rows and as it was elsewhere (`upd2`). All over an arbitrary view of the buffer and arbitrary prior contents,
  and over any float instance.
-/
import proofs.«117537_g30743375904967_cont_9to1_575_9_alg».proof.Proof.KI.Shared
import Idealize.ShloMosaic.Lib.WritesUnit

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## A load of a whole buffer -/

/-- The zero offsets of a rank-2 access, as the constant function. -/
theorem zero2 : (![0, 0] : Fin 2 → Nat) = fun _ => 0 := by
  funext d
  match d with
  | ⟨0, _⟩ => rfl
  | ⟨1, _⟩ => rfl

/-- A load through the whole-shape rectangle at zero offsets of a buffer whose contents read `X` reads `X`. -/
theorem readAt_whole {sg : RefSig} {κ : Kind} {sp : Space} {S : Shape} {e : EltTy}
    (v : View sg κ sp S e) (f : v.ty.Contents (Elt F)) (X : Vec F S e) (hf : v.read (Elt F) f = X)
    (off : Fin S.rank → Nat) (inb : ∀ d, off d + S.size d ≤ S.size d) (hoff : off = fun _ => 0) :
    v.readAt (Elt F) (Rect.unit off S.size inb).toLoadRect f = X := by
  subst hf hoff
  funext x
  rw [View.readAt_apply]
  refine congrArg (v.read (Elt F) f) (funext fun d => Fin.ext ?_)
  show 0 + 1 * (x d).val = (x d).val
  omega

/-! ## A load of one slab -/

/-- A load through the unit slab `p` of a [2,a,b] buffer whose contents read `X` reads slab `p` of `X`. -/
theorem readAt_slab {sg : RefSig} {κ : Kind} {sp : Space} {a b : Nat} {e : EltTy}
    (v : View sg κ sp (⟨3, ![2, a, b]⟩ : Shape) e) (f : v.ty.Contents (Elt F)) (X : Vec F ⟨3, ![2, a, b]⟩ e)
    (hf : v.read (Elt F) f = X) (p : Fin 2) (off : Fin 3 → Nat)
    (inb : ∀ d, off d + (![1, a, b] : Fin 3 → Nat) d ≤ (⟨3, ![2, a, b]⟩ : Shape).size d) (hoff : off = ![p.val, 0, 0]) :
    v.readAt (Elt F) (Rect.unit (s := ⟨3, ![2, a, b]⟩) off ![1, a, b] inb).toLoadRect f = sl3 p X := by
  subst hf hoff
  funext x
  rw [View.readAt_apply]
  unfold sl3
  refine congrArg (v.read (Elt F) f) (funext fun d => Fin.ext ?_)
  match d with
  | ⟨0, _⟩ =>
    have hx : (x 0).val = 0 := Nat.lt_one_iff.mp (x 0).isLt
    show p.val + 1 * (x 0).val = p.val
    omega
  | ⟨1, _⟩ => show 0 + 1 * (x 1).val = (x 1).val; omega
  | ⟨2, _⟩ => show 0 + 1 * (x 2).val = (x 2).val; omega

/-! ## Two slab stores that tile the buffer -/

/-- After the slab-0 store of `u` and then the slab-1 store of `w`, a [2,a,b] buffer reads `two3 u w`. -/
theorem read_two_slabs {sg : RefSig} {κ : Kind} {sp : Space} {a b : Nat} {e : EltTy}
    (v : View sg κ sp (⟨3, ![2, a, b]⟩ : Shape) e) (f : v.ty.Contents (Elt F)) (off0 off1 : Fin 3 → Nat)
    (inb0 : ∀ d, off0 d + (![1, a, b] : Fin 3 → Nat) d ≤ (⟨3, ![2, a, b]⟩ : Shape).size d)
    (inb1 : ∀ d, off1 d + (![1, a, b] : Fin 3 → Nat) d ≤ (⟨3, ![2, a, b]⟩ : Shape).size d)
    (u w : Vec F ⟨3, ![1, a, b]⟩ e) (h0 : off0 = ![0, 0, 0]) (h1 : off1 = ![1, 0, 0]) :
    v.read (Elt F) (v.writes (Elt F) f
        [(⟨Rect.unit (s := ⟨3, ![2, a, b]⟩) off1 ![1, a, b] inb1, w⟩ : View.Piece (Elt F) ⟨3, ![2, a, b]⟩ e),
         ⟨Rect.unit (s := ⟨3, ![2, a, b]⟩) off0 ![1, a, b] inb0, u⟩])
      = two3 u w := by
  funext y
  unfold two3
  have hy0 : (y 0).val < 2 := (y 0).isLt
  by_cases hy : (y 0).val = 0
  · rw [if_pos hy, View.read_writes_cons_unit_of_not_mem v f inb1 w _ y h1 (0 : Fin 3) (Or.inl (by show (y 0).val < 1; omega))]
    refine View.read_writes_cons_unit_of_mem v f inb0 u [] y (ix3 (0 : Fin 1) (y 1) (y 2)) h0 fun d => ?_
    match d with
    | ⟨0, _⟩ => show (y 0).val = 0 + 0; omega
    | ⟨1, _⟩ => show (y 1).val = 0 + (y 1).val; omega
    | ⟨2, _⟩ => show (y 2).val = 0 + (y 2).val; omega
  · rw [if_neg hy]
    refine View.read_writes_cons_unit_of_mem v f inb1 w _ y (ix3 (0 : Fin 1) (y 1) (y 2)) h1 fun d => ?_
    match d with
    | ⟨0, _⟩ => show (y 0).val = 1 + 0; omega
    | ⟨1, _⟩ => show (y 1).val = 0 + (y 1).val; omega
    | ⟨2, _⟩ => show (y 2).val = 0 + (y 2).val; omega

/-- A load of slab `p` after both slab stores reads slab `p` of the two payloads side by side, whatever the
    buffer held before. -/
theorem readCov_two_slabs {sg : RefSig} {κ : Kind} {sp : Space} {a b : Nat} {e : EltTy}
    (v : View sg κ sp (⟨3, ![2, a, b]⟩ : Shape) e) (off0 off1 : Fin 3 → Nat)
    (inb0 : ∀ d, off0 d + (![1, a, b] : Fin 3 → Nat) d ≤ (⟨3, ![2, a, b]⟩ : Shape).size d)
    (inb1 : ∀ d, off1 d + (![1, a, b] : Fin 3 → Nat) d ≤ (⟨3, ![2, a, b]⟩ : Shape).size d)
    (u w : Vec F ⟨3, ![1, a, b]⟩ e) (h0 : off0 = ![0, 0, 0]) (h1 : off1 = ![1, 0, 0])
    (p : Fin 2) (offp : Fin 3 → Nat)
    (inbp : ∀ d, offp d + (![1, a, b] : Fin 3 → Nat) d ≤ (⟨3, ![2, a, b]⟩ : Shape).size d) (hp : offp = ![p.val, 0, 0]) :
    v.readCov
        [(⟨Rect.unit (s := ⟨3, ![2, a, b]⟩) off1 ![1, a, b] inb1, w⟩ : View.Piece (Elt F) ⟨3, ![2, a, b]⟩ e),
         ⟨Rect.unit (s := ⟨3, ![2, a, b]⟩) off0 ![1, a, b] inb0, u⟩]
        (Rect.unit (s := ⟨3, ![2, a, b]⟩) offp ![1, a, b] inbp).toLoadRect
      = sl3 p (two3 u w) :=
  readAt_slab v _ (two3 u w) (read_two_slabs v v.junk off0 off1 inb0 inb1 u w h0 h1) p offp inbp hp

/-- A unit leading coordinate carries nothing: an index of a [1,a,b] shape is its last two coordinates. -/
theorem ix3_unit_eq {a b : Nat} (y : (⟨3, ![1, a, b]⟩ : Shape).Idx) : ix3 (0 : Fin 1) (y 1) (y 2) = y := by
  have hy : (y 0).val = 0 := Nat.lt_one_iff.mp (y 0).isLt
  funext d
  match d with
  | ⟨0, _⟩ => exact Fin.ext hy.symm
  | ⟨1, _⟩ => rfl
  | ⟨2, _⟩ => rfl

/-- Slab 0 of a buffer read as its two slabs side by side is the first payload, -/
theorem sl3_two3_zero {a b : Nat} {e : EltTy} (u w : Vec F ⟨3, ![1, a, b]⟩ e) : sl3 0 (two3 u w) = u := by
  funext y
  show (if ((0 : Fin 2)).val = 0 then u (ix3 (0 : Fin 1) (y 1) (y 2)) else w (ix3 (0 : Fin 1) (y 1) (y 2))) = u y
  exact (if_pos (show ((0 : Fin 2)).val = 0 from rfl)).trans (congrArg u (ix3_unit_eq y))

/-- and slab 1 the second. -/
theorem sl3_two3_one {a b : Nat} {e : EltTy} (u w : Vec F ⟨3, ![1, a, b]⟩ e) : sl3 1 (two3 u w) = w := by
  funext y
  show (if ((1 : Fin 2)).val = 0 then u (ix3 (0 : Fin 1) (y 1) (y 2)) else w (ix3 (0 : Fin 1) (y 1) (y 2))) = w y
  exact (if_neg (show ¬ ((1 : Fin 2)).val = 0 by decide)).trans (congrArg w (ix3_unit_eq y))

/-! ## A store of 200 whole rows -/

/-- The offsets of the row-block store are its row offset and column 0. -/
theorem off1_eq_rows (i : grid0.Coords) : k0_off1 i = ![k0_off1 i 0, 0] := by
  funext d
  match d with
  | ⟨0, _⟩ => rfl
  | ⟨1, _⟩ => rfl

/-- After a store of the block `P` through rows `o … o+199` (all columns) over contents reading `s`, the
    [10000,128] buffer reads `upd2 s o P`. -/
theorem read_rows_upd2 {sg : RefSig} {κ : Kind} {sp : Space} (v : View sg κ sp S10000x128 .bf16)
    (f : v.ty.Contents (Elt F)) (s : Vec F S10000x128 .bf16) (hf : v.read (Elt F) f = s) (off : Fin 2 → Nat) (o : Nat)
    (inb : ∀ d, off d + S200x128.size d ≤ S10000x128.size d) (P : Vec F S200x128 .bf16) (hoff : off = ![o, 0]) :
    v.read (Elt F) (v.writes (Elt F) f [(⟨Rect.unit (s := S10000x128) off S200x128.size inb, P⟩ : View.Piece (Elt F) S10000x128 .bf16)])
      = upd2 s o P := by
  subst hf
  funext y
  rw [View.read_writes_cons_rows v f inb P [] y hoff (W := 200) rfl rfl]
  unfold upd2
  by_cases h : o ≤ (y 0).val ∧ (y 0).val < o + 200
  · rw [dif_pos h, dif_pos h]
    refine congrArg P (funext fun d => Fin.ext ?_)
    match d with
    | ⟨0, _⟩ => rfl
    | ⟨1, _⟩ => show (y 1).val - 0 = (y 1).val; omega
  · rw [dif_neg h, dif_neg h]; rfl

end Cert.KernelIdeal.Hand

end
-- ==== Proof.KI.RunA.lean ====
/-
  The body's run at the first grid point: the first and second branches are taken. The first loads the feature block
  and the two weight slabs and stores the two projections as the two slabs of the projection buffer (which it also
  loads before each store, values nobody uses); the second then loads both slabs of the adjacency block and reads
  BACK the two projection slabs just stored, and stores the row block of the hidden activation computed from them
  into 200 rows of the hidden-activation buffer; every other buffer is handed back as it was.
-/
import proofs.«117537_g30743375904967_cont_9to1_575_9_alg».proof.Proof.KI.RunLemAB

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runA (c : Dev nD) (i : grid0.Coords)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S2x128x64 .f32) (harg4 : arg4.IsWhole)
    (arg5 : Memref sig .tc .vmem S200x64 .f32) (harg5 : arg5.IsWhole) (arg6 : Memref sig .tc .vmem S2x10000x128 .f32) (harg6 : arg6.IsWhole)
    (arg7 : Memref sig .tc .vmem S2x10000x64 .f32) (harg7 : arg7.IsWhole) (arg8 : Memref sig .tc .vmem S10000x128 .bf16) (harg8 : arg8.IsWhole)
    (hc1 : cond1 i) (hc2 : cond2 i) (hc3 : ¬cond3 i) (hc4 : ¬cond4 i)
    (x0 : Vec F S2x200x10000 .f32) (x1 : Vec F S10000x128 .f32) (x2 : Vec F S2x128x128 .f32) (x3 : Vec F S2x128x64 .f32) (x4 : Vec F S200x64 .f32)
    (s0 : Vec F S2x10000x128 .f32) (s1 : Vec F S2x10000x64 .f32) (s2 : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ owns (c : Thread nD τ) arg6 fullShare (B0of x1 x2) ∗ owns (c : Thread nD τ) arg7 fullShare s1 ∗ owns (c : Thread nD τ) arg8 fullShare (upd2 s2 (k0_off1 i 0) (hidBlk x0 (B0of x1 x2)))) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hg0; obtain rfl := harg7.eq_unread hg1; obtain rfl := harg8.eq_unread hg2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  -- the loads of the first branch read the feature block and the two weight slabs
  have eX : View.readAt (Elt F) arg2.view (Rect.unit (s := S10000x128) ![0, 0] S10000x128.size inb_S10000x128_S10000x128_0_0).toLoadRect (harg2.unread x1) = x1 :=
    readAt_whole arg2.view _ x1 (harg2.read_unread x1) _ _ zero2
  have eW0 : View.readAt (Elt F) arg3.view (Rect.unit (s := S2x128x128) ![0, 0, 0] S1x128x128.size inb_S2x128x128_S1x128x128_0_0_0).toLoadRect (harg3.unread x2) = sl3 0 x2 :=
    readAt_slab arg3.view _ x2 (harg3.read_unread x2) 0 _ _ rfl
  have eW1 : View.readAt (Elt F) arg3.view (Rect.unit (s := S2x128x128) ![1, 0, 0] S1x128x128.size inb_S2x128x128_S1x128x128_1_0_0).toLoadRect (harg3.unread x2) = sl3 1 x2 :=
    readAt_slab arg3.view _ x2 (harg3.read_unread x2) 1 _ _ rfl
  isplitl [G0]
  · iexists _; isplitr
    swap
    · iexact G0
    · ipureintro
      sl_unfold_run_names
      rw [eX, eW0, eW1]
      -- the two slab stores tile the projection buffer
      exact read_two_slabs arg6.view _ _ _ _ _ _ _ rfl rfl
  isplitl [G1]
  · iexists _; isplitr; · ipureintro; exact harg7.read_unread _
    iexact G1
  iexists _; isplitr
  swap
  · iexact G2
  · ipureintro
    sl_unfold_run_names
    rw [eX, eW0, eW1]
    have eA : View.readAt (Elt F) arg1.view (Rect.unit (s := S2x200x10000) ![0, 0, 0] S1x200x10000.size inb_S2x200x10000_S1x200x10000_0_0_0).toLoadRect (harg1.unread x0) = sl3 0 x0 :=
      readAt_slab arg1.view _ x0 (harg1.read_unread x0) 0 _ _ rfl
    have eC : View.readAt (Elt F) arg1.view (Rect.unit (s := S2x200x10000) ![1, 0, 0] S1x200x10000.size inb_S2x200x10000_S1x200x10000_1_0_0).toLoadRect (harg1.unread x0) = sl3 1 x0 :=
      readAt_slab arg1.view _ x0 (harg1.read_unread x0) 1 _ _ rfl
    rw [eA, eC]
    -- the one store overwrites the 200 rows from its row offset,
    refine (read_rows_upd2 arg8.view _ s2 (harg8.read_unread s2) (k0_off1 i) (k0_off1 i 0) _ _ (off1_eq_rows i)).trans ?_
    refine congrArg (upd2 s2 (k0_off1 i 0)) ?_
    -- with the block computed from the projection slabs read back after both stores
    unfold hidBlk B0of
    exact congr (congrArg (k0_pay3 (sl3 0 x0) · (sl3 1 x0)) (readCov_two_slabs arg6.view _ _ _ _ _ _ rfl rfl 0 _ _ rfl))
      (readCov_two_slabs arg6.view _ _ _ _ _ _ rfl rfl 1 _ _ rfl)

end Cert.KernelIdeal.Hand

end
-- ==== Proof.KI.RunB.lean ====
/-
  The body's run at a grid point from 1 to 49: only the second branch is taken. It loads both slabs of the adjacency
  block and both slabs of the first layer's projections (which this point does not store into), and stores the row
  block of the hidden activation computed from them into 200 rows of the hidden-activation buffer; every other
  buffer is handed back as it was.
-/
import proofs.«117537_g30743375904967_cont_9to1_575_9_alg».proof.Proof.KI.RunLemAB

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runB (c : Dev nD) (i : grid0.Coords)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S2x128x64 .f32) (harg4 : arg4.IsWhole)
    (arg5 : Memref sig .tc .vmem S200x64 .f32) (harg5 : arg5.IsWhole) (arg6 : Memref sig .tc .vmem S2x10000x128 .f32) (harg6 : arg6.IsWhole)
    (arg7 : Memref sig .tc .vmem S2x10000x64 .f32) (harg7 : arg7.IsWhole) (arg8 : Memref sig .tc .vmem S10000x128 .bf16) (harg8 : arg8.IsWhole)
    (hc1 : ¬cond1 i) (hc2 : cond2 i) (hc3 : ¬cond3 i) (hc4 : ¬cond4 i)
    (x0 : Vec F S2x200x10000 .f32) (x1 : Vec F S10000x128 .f32) (x2 : Vec F S2x128x128 .f32) (x3 : Vec F S2x128x64 .f32) (x4 : Vec F S200x64 .f32)
    (s0 : Vec F S2x10000x128 .f32) (s1 : Vec F S2x10000x64 .f32) (s2 : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ owns (c : Thread nD τ) arg6 fullShare s0 ∗ owns (c : Thread nD τ) arg7 fullShare s1 ∗ owns (c : Thread nD τ) arg8 fullShare (upd2 s2 (k0_off1 i 0) (hidBlk x0 s0))) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hg0; obtain rfl := harg7.eq_unread hg1; obtain rfl := harg8.eq_unread hg2
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [G0]
  · iexists _; isplitr; · ipureintro; exact harg6.read_unread _
    iexact G0
  isplitl [G1]
  · iexists _; isplitr; · ipureintro; exact harg7.read_unread _
    iexact G1
  iexists _; isplitr
  swap
  · iexact G2
  · ipureintro
    -- the loads read the slabs of the adjacency block and of the projections
    have eA : View.readAt (Elt F) arg1.view (Rect.unit (s := S2x200x10000) ![0, 0, 0] S1x200x10000.size inb_S2x200x10000_S1x200x10000_0_0_0).toLoadRect (harg1.unread x0) = sl3 0 x0 :=
      readAt_slab arg1.view _ x0 (harg1.read_unread x0) 0 _ _ rfl
    have eC : View.readAt (Elt F) arg1.view (Rect.unit (s := S2x200x10000) ![1, 0, 0] S1x200x10000.size inb_S2x200x10000_S1x200x10000_1_0_0).toLoadRect (harg1.unread x0) = sl3 1 x0 :=
      readAt_slab arg1.view _ x0 (harg1.read_unread x0) 1 _ _ rfl
    have eB : View.readAt (Elt F) arg6.view (Rect.unit (s := S2x10000x128) ![0, 0, 0] S1x10000x128.size inb_S2x10000x128_S1x10000x128_0_0_0).toLoadRect (harg6.unread s0) = sl3 0 s0 :=
      readAt_slab arg6.view _ s0 (harg6.read_unread s0) 0 _ _ rfl
    have eD : View.readAt (Elt F) arg6.view (Rect.unit (s := S2x10000x128) ![1, 0, 0] S1x10000x128.size inb_S2x10000x128_S1x10000x128_1_0_0).toLoadRect (harg6.unread s0) = sl3 1 s0 :=
      readAt_slab arg6.view _ s0 (harg6.read_unread s0) 1 _ _ rfl
    rw [eA, eC, eB, eD]
    -- and the one store overwrites the 200 rows from its row offset
    exact read_rows_upd2 arg8.view _ s2 (harg8.read_unread s2) (k0_off1 i) (k0_off1 i 0) _ _ (off1_eq_rows i)

end Cert.KernelIdeal.Hand

end
-- ==== Proof.KI.RunLemCD.lean ====
/-
  What one store of a whole buffer leaves, for the body's runs at the grid points from 50 on: the output block is
  stored through the whole-shape rectangle at zero offsets, and then reads as the stored payload whatever the buffer
  held before. (Loads of slabs and of whole buffers, and the two slab stores, are read by the lemmas this module
  imports.)
-/
import proofs.«117537_g30743375904967_cont_9to1_575_9_alg».proof.Proof.KI.RunLemAB
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One store of the whole buffer leaves its payload, whatever the buffer held. -/
theorem read_store_whole {sg : RefSig} {κ : Kind} {sp : Space} {S : Shape} {e : EltTy} (v : View sg κ sp S e)
    (f : v.ty.Contents (Elt F)) (off : Fin S.rank → Nat) (inb : ∀ d, off d + S.size d ≤ S.size d) (w : S.Idx → Elt F e)
    (hoff : off = fun _ => 0) :
    v.read (Elt F) (v.writes (Elt F) f [(⟨Rect.unit off S.size inb, w⟩ : View.Piece (Elt F) S e)]) = w :=
  (View.read_writes_eq_canon v f _ (fun y => ⟨_, List.mem_singleton_self _, View.mem_set_unit_zero hoff inb y⟩)).trans
    (View.canon_unit_zero hoff inb w)

end Cert.KernelIdeal.Hand

end
-- ==== Proof.KI.RunC.lean ====
/-
  The kernel body's run at grid point 50: the first two branches are skipped; the third loads the whole hidden
  activation and the two slabs of the second layer's weights and stores the second layer's projections as two slabs;
  the fourth loads the two slabs of the adjacency block, reads the two projection slabs back (after the stores),
  loads the output block (a dead load), and stores the whole output block. The projection buffer is left at
  `B1of s2 x3`, the output buffer at `outBlk x0 (B1of s2 x3)`; every other buffer is left as it was. Generic in the
  float instance.
-/
import proofs.«117537_g30743375904967_cont_9to1_575_9_alg».proof.Proof.KI.RunLemCD

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two slab payloads of the third branch, over the loads as the run leaves them (the whole hidden activation and
    the two weight slabs, each read off a whole memref), are the slabs of `B1of s2 x3`. -/
theorem B1_of_loads (arg4 : Memref sig .tc .vmem S2x128x64 .f32) (harg4 : arg4.IsWhole)
    (arg8 : Memref sig .tc .vmem S10000x128 .bf16) (harg8 : arg8.IsWhole)
    (x3 : Vec F S2x128x64 .f32) (s2 : Vec F S10000x128 .bf16)
    (inb8 : ∀ a, (![0, 0] : Fin 2 → Nat) a + S10000x128.size a ≤ S10000x128.size a)
    (inb40 : ∀ a, (![0, 0, 0] : Fin 3 → Nat) a + S1x128x64.size a ≤ S2x128x64.size a)
    (inb41 : ∀ a, (![1, 0, 0] : Fin 3 → Nat) a + S1x128x64.size a ≤ S2x128x64.size a) :
    two3 (k0_pay4 (View.readAt (Elt F) arg8.view (Rect.unit (s := S10000x128) ![0, 0] S10000x128.size inb8).toLoadRect (harg8.unread s2))
            (View.readAt (Elt F) arg4.view (Rect.unit (s := S2x128x64) ![0, 0, 0] S1x128x64.size inb40).toLoadRect (harg4.unread x3)))
         (k0_pay5 (View.readAt (Elt F) arg8.view (Rect.unit (s := S10000x128) ![0, 0] S10000x128.size inb8).toLoadRect (harg8.unread s2))
            (View.readAt (Elt F) arg4.view (Rect.unit (s := S2x128x64) ![1, 0, 0] S1x128x64.size inb41).toLoadRect (harg4.unread x3)))
      = B1of s2 x3 := by
  unfold B1of
  refine congr (congrArg two3 ?_) ?_
  · refine congr (congrArg k0_pay4 ?_) ?_
    · exact readAt_whole arg8.view _ s2 (harg8.read_unread s2) ![0, 0] _ zero2
    · exact readAt_slab (a := 128) (b := 64) arg4.view _ x3 (harg4.read_unread x3) 0 ![0, 0, 0] _ rfl
  · refine congr (congrArg k0_pay5 ?_) ?_
    · exact readAt_whole arg8.view _ s2 (harg8.read_unread s2) ![0, 0] _ zero2
    · exact readAt_slab (a := 128) (b := 64) arg4.view _ x3 (harg4.read_unread x3) 1 ![1, 0, 0] _ rfl

set_option maxHeartbeats 1000000 in
theorem runC (c : Dev nD) (i : grid0.Coords)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S2x128x64 .f32) (harg4 : arg4.IsWhole)
    (arg5 : Memref sig .tc .vmem S200x64 .f32) (harg5 : arg5.IsWhole) (arg6 : Memref sig .tc .vmem S2x10000x128 .f32) (harg6 : arg6.IsWhole)
    (arg7 : Memref sig .tc .vmem S2x10000x64 .f32) (harg7 : arg7.IsWhole) (arg8 : Memref sig .tc .vmem S10000x128 .bf16) (harg8 : arg8.IsWhole)
    (hc1 : ¬cond1 i) (hc2 : ¬cond2 i) (hc3 : cond3 i) (hc4 : cond4 i)
    (x0 : Vec F S2x200x10000 .f32) (x1 : Vec F S10000x128 .f32) (x2 : Vec F S2x128x128 .f32) (x3 : Vec F S2x128x64 .f32) (x4 : Vec F S200x64 .f32)
    (s0 : Vec F S2x10000x128 .f32) (s1 : Vec F S2x10000x64 .f32) (s2 : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 (B1of s2 x3))
              ∗ owns (c : Thread nD τ) arg6 fullShare s0 ∗ owns (c : Thread nD τ) arg7 fullShare (B1of s2 x3) ∗ owns (c : Thread nD τ) arg8 fullShare s2) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap
    · iexact H4
    · ipureintro
      sl_unfold_run_names
      refine (read_store_whole arg5.view _ ![0, 0] _ _ zero2).trans ?_
      unfold outBlk
      refine congr (congr (congr (congrArg k0_pay6 ?_) ?_) ?_) ?_
      · exact readAt_slab (a := 200) (b := 10000) arg1.view _ x0 (harg1.read_unread x0) 0 ![0, 0, 0] _ rfl
      · refine (readCov_two_slabs (a := 10000) (b := 64) arg7.view ![0, 0, 0] ![1, 0, 0] _ _ _ _ rfl rfl 0 ![0, 0, 0] _ rfl).trans ?_
        exact congrArg (sl3 0) (B1_of_loads arg4 harg4 arg8 harg8 x3 s2 _ _ _)
      · exact readAt_slab (a := 200) (b := 10000) arg1.view _ x0 (harg1.read_unread x0) 1 ![1, 0, 0] _ rfl
      · refine (readCov_two_slabs (a := 10000) (b := 64) arg7.view ![0, 0, 0] ![1, 0, 0] _ _ _ _ rfl rfl 1 ![1, 0, 0] _ rfl).trans ?_
        exact congrArg (sl3 1) (B1_of_loads arg4 harg4 arg8 harg8 x3 s2 _ _ _)
  isplitl [H5]
  · iexists _; isplitr; · ipureintro; exact harg6.read_unread _
    iexact H5
  isplitl [H6]
  · iexists _; isplitr
    swap
    · iexact H6
    · ipureintro
      sl_unfold_run_names
      refine (read_two_slabs (a := 10000) (b := 64) arg7.view _ ![0, 0, 0] ![1, 0, 0] _ _ _ _ rfl rfl).trans ?_
      exact B1_of_loads arg4 harg4 arg8 harg8 x3 s2 _ _ _
  iexists _; isplitr; · ipureintro; exact harg8.read_unread _
  iexact H7

end Cert.KernelIdeal.Hand

end
-- ==== Proof.KI.RunD.lean ====
/-
  The kernel body's run at a grid point after 50 (points 51 to 99): the first three branches are skipped and the fourth
  loads the two slabs of the adjacency block and of the second layer's projections, loads the output block (a dead
  load), and stores the whole output block. The output buffer is left at `outBlk x0 s1`; every other buffer is left as
  it was. Generic in the float instance.
-/
import proofs.«117537_g30743375904967_cont_9to1_575_9_alg».proof.Proof.KI.RunLemCD

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runD (c : Dev nD) (i : grid0.Coords)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S2x128x64 .f32) (harg4 : arg4.IsWhole)
    (arg5 : Memref sig .tc .vmem S200x64 .f32) (harg5 : arg5.IsWhole) (arg6 : Memref sig .tc .vmem S2x10000x128 .f32) (harg6 : arg6.IsWhole)
    (arg7 : Memref sig .tc .vmem S2x10000x64 .f32) (harg7 : arg7.IsWhole) (arg8 : Memref sig .tc .vmem S10000x128 .bf16) (harg8 : arg8.IsWhole)
    (hc1 : ¬cond1 i) (hc2 : ¬cond2 i) (hc3 : ¬cond3 i) (hc4 : cond4 i)
    (x0 : Vec F S2x200x10000 .f32) (x1 : Vec F S10000x128 .f32) (x2 : Vec F S2x128x128 .f32) (x3 : Vec F S2x128x64 .f32) (x4 : Vec F S200x64 .f32)
    (s0 : Vec F S2x10000x128 .f32) (s1 : Vec F S2x10000x64 .f32) (s2 : Vec F S10000x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 s1)
              ∗ owns (c : Thread nD τ) arg6 fullShare s0 ∗ owns (c : Thread nD τ) arg7 fullShare s1 ∗ owns (c : Thread nD τ) arg8 fullShare s2) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap
    · iexact H4
    · ipureintro
      refine (read_store_whole arg5.view _ ![0, 0] _ _ zero2).trans ?_
      unfold outBlk
      refine congr (congr (congr (congrArg k0_pay6 ?_) ?_) ?_) ?_
      · exact readAt_slab (a := 200) (b := 10000) arg1.view _ x0 (harg1.read_unread x0) 0 ![0, 0, 0] _ rfl
      · exact readAt_slab (a := 10000) (b := 64) arg7.view _ s1 (harg7.read_unread s1) 0 ![0, 0, 0] _ rfl
      · exact readAt_slab (a := 200) (b := 10000) arg1.view _ x0 (harg1.read_unread x0) 1 ![1, 0, 0] _ rfl
      · exact readAt_slab (a := 10000) (b := 64) arg7.view _ s1 (harg7.read_unread s1) 1 ![1, 0, 0] _ rfl
  isplitl [H5]
  · iexists _; isplitr; · ipureintro; exact harg6.read_unread _
    iexact H5
  isplitl [H6]
  · iexists _; isplitr; · ipureintro; exact harg7.read_unread _
    iexact H6
  iexists _; isplitr; · ipureintro; exact harg8.read_unread _
  iexact H7

end Cert.KernelIdeal.Hand

end
-- ==== Proof.KI.Data.lean ====
/-
  The kernel's run over its 100 grid points, for any float instance.

  Proof data: each input window's staging buffer holds its block at every point; the output window's buffer, from
  point 50 on, holds the row block of the result computed from the adjacency block fetched there and the second
  layer's projections. The invariant between points: before point 0 nothing is known of the scratch buffers; before a
  point n with 1 ≤ n ≤ 50 the first scratch holds the first layer's projections (stored at point 0) and the hidden-
  activation scratch agrees with the whole hidden activation on its first 200·n rows (each point below 50 stores
  200 rows of it); before a point n > 50 the second scratch holds the second layer's projections (stored at point 50
  from the by then complete hidden activation). Each point's body is one of four runs.
-/
import proofs.«117537_g30743375904967_cont_9to1_575_9_alg».proof.Proof.KI.RunA
import proofs.«117537_g30743375904967_cont_9to1_575_9_alg».proof.Proof.KI.RunB
import proofs.«117537_g30743375904967_cont_9to1_575_9_alg».proof.Proof.KI.RunC
import proofs.«117537_g30743375904967_cont_9to1_575_9_alg».proof.Proof.KI.RunD

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the run passes through -/

/-- The first and the fifty-first grid point. -/
abbrev t0 : Fin cfg0.N := ⟨0, by decide⟩
abbrev t50 : Fin cfg0.N := ⟨50, by decide⟩

/-- The first layer's projections, as point 0 leaves them in the first scratch. -/
def S0 (c : Dev nD) : Vec F S2x10000x128 .f32 := B0of (iblk m c 1 t0) (iblk m c 2 t0)

/-- The row block of the hidden activation a point computes from the adjacency block it is handed. -/
def hid (c : Dev nD) (t : Fin cfg0.N) : Vec F S200x128 .bf16 := hidBlk (iblk m c 0 t) (S0 m c)

/-- The whole hidden activation: row r is row (r mod 200) of the block point (r div 200) computes. -/
def HidFull (c : Dev nD) : Vec F S10000x128 .bf16 := fun y =>
  hid m c ⟨(y 0).val / 200, by have := idx2_lt0 y; have : cfg0.N = 100 := N_0; omega⟩ (ix2 ⟨(y 0).val % 200, Nat.mod_lt _ (by decide)⟩ (y 1))

/-- The second layer's projections, as point 50 leaves them in the second scratch. -/
def S1 (c : Dev nD) : Vec F S2x10000x64 .f32 := B1of (HidFull m c) (iblk m c 3 t50)

/-- The row block of the result a point from 50 on leaves in the output window's buffer. -/
def O (c : Dev nD) (t : Fin cfg0.N) : Vec F S200x64 .f32 := outBlk (iblk m c 0 t) (S1 m c)

/-- `f` agrees with `H` on the first `200 · n` rows. -/
def UptoRows (H : Vec F S10000x128 .bf16) (n : ℕ) (f : Vec F S10000x128 .bf16) : Prop :=
  ∀ y : S10000x128.Idx, (y 0).val < 200 * n → f y = H y

/-- Overwriting rows 200·n … 200·n+199 with what `H` holds there extends the agreement by one block. -/
theorem uptoRows_step (H f : Vec F S10000x128 .bf16) (n : ℕ) (P : Vec F S200x128 .bf16) (hprev : UptoRows H n f)
    (hP : ∀ (y : S10000x128.Idx) (h : 200 * n ≤ (y 0).val ∧ (y 0).val < 200 * n + 200), P (ix2 ⟨(y 0).val - 200 * n, by omega⟩ (y 1)) = H y) :
    UptoRows H (n + 1) (upd2 f (200 * n) P) := by
  intro y hy
  unfold upd2
  split_ifs with h
  · exact hP y h
  · exact hprev y (by omega)

/-- The block point `t` computes is the whole hidden activation on rows 200·t … 200·t+199. -/
theorem hid_eq_full (c : Dev nD) (t : Fin cfg0.N) (y : S10000x128.Idx) (h : 200 * t.val ≤ (y 0).val ∧ (y 0).val < 200 * t.val + 200) :
    hid m c t (ix2 ⟨(y 0).val - 200 * t.val, by omega⟩ (y 1)) = HidFull m c y := by
  unfold HidFull
  have e1 : (⟨(y 0).val / 200, by have := idx2_lt0 y; have : cfg0.N = 100 := N_0; omega⟩ : Fin cfg0.N) = t := Fin.ext (by show (y 0).val / 200 = t.val; omega)
  have e2 : (⟨(y 0).val % 200, Nat.mod_lt _ (by decide)⟩ : Fin 200) = ⟨(y 0).val - 200 * t.val, by omega⟩ := Fin.ext (by show (y 0).val % 200 = (y 0).val - 200 * t.val; omega)
  rw [e1, e2]

/-- Agreement on all 10000 rows is equality. -/
theorem eq_of_uptoRows (H f : Vec F S10000x128 .bf16) (h : UptoRows H 50 f) : f = H :=
  funext fun y => h y (by have := idx2_lt0 y; omega)

/-! ## The invariant between points -/

/-- Before position `n`. -/
def PhiS (c : Dev nD) (n : ℕ) : sProp 𝕄 :=
  if n = 0 then Pipeline.ΦA spec0 c
  else if n ≤ 50 then
    iprop(iprop(owns (c : Thread nD τ) scM0 fullShare (S0 m c) ∗ (∃ d, owns (c : Thread nD τ) scM1 fullShare d)
      ∗ (∃ f, owns (c : Thread nD τ) scM2 fullShare f ∗ ⌜UptoRows (HidFull m c) n f⌝)) ∗ (∃ r, prngReg c r))
  else
    iprop(iprop((∃ d, owns (c : Thread nD τ) scM0 fullShare d) ∗ owns (c : Thread nD τ) scM1 fullShare (S1 m c)
      ∗ (∃ d, owns (c : Thread nD τ) scM2 fullShare d)) ∗ (∃ r, prngReg c r))

theorem PhiS_zero (c : Dev nD) (n : ℕ) (hz : n = 0) : PhiS m c n = Pipeline.ΦA spec0 c := by
  unfold PhiS; rw [if_pos hz]

theorem PhiS_lo (c : Dev nD) (n : ℕ) (h0 : n ≠ 0) (h : n ≤ 50) :
    PhiS m c n = iprop(iprop(owns (c : Thread nD τ) scM0 fullShare (S0 m c) ∗ (∃ d, owns (c : Thread nD τ) scM1 fullShare d)
      ∗ (∃ f, owns (c : Thread nD τ) scM2 fullShare f ∗ ⌜UptoRows (HidFull m c) n f⌝)) ∗ (∃ r, prngReg c r)) := by
  unfold PhiS; rw [if_neg h0, if_pos h]

theorem PhiS_hi (c : Dev nD) (n : ℕ) (h : 50 < n) :
    PhiS m c n = iprop(iprop((∃ d, owns (c : Thread nD τ) scM0 fullShare d) ∗ owns (c : Thread nD τ) scM1 fullShare (S1 m c)
      ∗ (∃ d, owns (c : Thread nD τ) scM2 fullShare d)) ∗ (∃ r, prngReg c r)) := by
  unfold PhiS; rw [if_neg (by omega), if_neg (by omega)]

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => O m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = O m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The five windows' buffers as the body leaves them at a point below 50 (the output window idle there). -/
theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t) := by
  refine ⟨?_, ?_, ?_, ?_⟩
  · unfold Dat.leavesExact; rw [liveAt_0 t, after_0]
  · unfold Dat.leavesExact; rw [liveAt_1 t, after_1]
  · unfold Dat.leavesExact; rw [liveAt_2 t, after_2]
  · unfold Dat.leavesExact; rw [liveAt_3 t, after_3]

theorem leaves_out (c : Dev nD) (t : Fin cfg0.N) (h : 50 ≤ t.val) :
    (dats m 0 c).leavesExact 4 t = owns (c : Thread nD τ) (ms4 t) fullShare (O m c t) := by
  unfold Dat.leavesExact; rw [liveAt_4 t h, after_4]

set_option maxHeartbeats 4800000 in
/-- The body at any point: which of the four runs applies is decided by the point's position; the invariant hands
    the run the scratch buffers' contents and takes them back as the run leaves them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 100 := lt_of_lt_of_eq t.isLt (show cfg0.N = 100 from N_0)
  rw [(leaves_in m c t).1, (leaves_in m c t).2.1, (leaves_in m c t).2.2.1, (leaves_in m c t).2.2.2]
  by_cases h50 : t.val < 50
  · rw [Dat.leavesExact_idle (dats m 0 c) 4 t (idleAt_4 t h50) (noFlush_4 t h50)]
    rw [PhiS_lo m c (t.val + 1) (by omega) (by omega)]
    have hoff : k0_off1 (grid0.coords t) 0 = 200 * t.val := (off1_val t h50).1
    by_cases hz : t.val = 0
    · rw [PhiS_zero m c _ hz, PhiA0_eq]
      iintro ⟨⟨⟨⟨%d0, HS0⟩, ⟨%d1, HS1⟩, ⟨%d2, HS2⟩⟩, Hg⟩, Ho, ⟨%e0, H0⟩, ⟨%e1, H1⟩, ⟨%e2, H2⟩, ⟨%e3, H3⟩, ⟨%e4, H4⟩⟩
      iapply (runA c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _)
        ((hcond1 t).mpr hz) ((hcond2 t).mpr h50) (fun h => by have := (hcond3 t).mp h; omega) (fun h => by have := (hcond4 t).mp h; omega)
        (iblk m c 0 t) (iblk m c 1 t) (iblk m c 2 t) (iblk m c 3 t) _ d0 d1 d2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      have ht : t = t0 := Fin.ext hz
      isplitl [HS0 HS1 HS2 Hg]
      · isplitl [HS0 HS1 HS2]
        · isplitl [HS0]
          · rw [ht]; iexact HS0
          isplitl [HS1]
          · iexists _; iexact HS1
          iexists _; isplitl [HS2]
          · iexact HS2
          ipureintro
          rw [hoff]
          have hS : B0of (iblk m c 1 t) (iblk m c 2 t) = S0 m c := by rw [ht]; rfl
          rw [hS]
          exact uptoRows_step (HidFull m c) d2 t.val (hid m c t) (fun y hy => by omega) (fun y h => hid_eq_full m c t y h)
        iexact Hg
      isplitl [Ho]; · iexact Ho
      isplitl [H0]; · iexact H0
      isplitl [H1]; · iexact H1
      isplitl [H2]; · iexact H2
      isplitl [H3]; · iexact H3
      iexists _; iexact H4
    · rw [PhiS_lo m c t.val hz (by omega)]
      iintro ⟨⟨⟨HS0, ⟨%d1, HS1⟩, ⟨%d2, HS2, %hd2⟩⟩, Hg⟩, Ho, ⟨%e0, H0⟩, ⟨%e1, H1⟩, ⟨%e2, H2⟩, ⟨%e3, H3⟩, ⟨%e4, H4⟩⟩
      iapply (runB c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _)
        (fun h => hz ((hcond1 t).mp h)) ((hcond2 t).mpr h50) (fun h => by have := (hcond3 t).mp h; omega) (fun h => by have := (hcond4 t).mp h; omega)
        (iblk m c 0 t) (iblk m c 1 t) (iblk m c 2 t) (iblk m c 3 t) _ (S0 m c) d1 d2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]
          · iexact HS0
          isplitl [HS1]
          · iexists _; iexact HS1
          iexists _; isplitl [HS2]
          · iexact HS2
          ipureintro
          rw [hoff]
          exact uptoRows_step (HidFull m c) d2 t.val (hid m c t) hd2 (fun y h => hid_eq_full m c t y h)
        iexact Hg
      isplitl [Ho]; · iexact Ho
      isplitl [H0]; · iexact H0
      isplitl [H1]; · iexact H1
      isplitl [H2]; · iexact H2
      isplitl [H3]; · iexact H3
      iexists _; iexact H4
  · have h50' : 50 ≤ t.val := by omega
    rw [leaves_out m c t h50']
    rw [PhiS_hi m c (t.val + 1) (by omega)]
    by_cases hz : t.val = 50
    · rw [PhiS_lo m c t.val (by omega) (by omega)]
      iintro ⟨⟨⟨HS0, ⟨%d1, HS1⟩, ⟨%d2, HS2, %hd2⟩⟩, Hg⟩, Ho, ⟨%e0, H0⟩, ⟨%e1, H1⟩, ⟨%e2, H2⟩, ⟨%e3, H3⟩, ⟨%e4, H4⟩⟩
      have hd : d2 = HidFull m c := eq_of_uptoRows (HidFull m c) d2 (by rw [hz] at hd2; exact hd2)
      subst hd
      iapply (runC c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _)
        (fun h => by have := (hcond1 t).mp h; omega) (fun h => by have := (hcond2 t).mp h; omega) ((hcond3 t).mpr hz) ((hcond4 t).mpr h50')
        (iblk m c 0 t) (iblk m c 1 t) (iblk m c 2 t) (iblk m c 3 t) _ (S0 m c) d1 (HidFull m c) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      have ht : t = t50 := Fin.ext hz
      have hS : B1of (HidFull m c) (iblk m c 3 t) = S1 m c := by rw [ht]; rfl
      rw [hS]
      isplitl [HS0 HS1 HS2 Hg]
      · isplitl [HS0 HS1 HS2]
        · isplitl [HS0]
          · iexists _; iexact HS0
          isplitl [HS1]
          · iexact HS1
          iexists _; iexact HS2
        iexact Hg
      isplitl [Ho]; · iexact Ho
      isplitl [H0]; · iexact H0
      isplitl [H1]; · iexact H1
      isplitl [H2]; · iexact H2
      isplitl [H3]; · iexact H3
      iexact H4
    · rw [PhiS_hi m c t.val (by omega)]
      iintro ⟨⟨⟨⟨%d0, HS0⟩, HS1, ⟨%d2, HS2⟩⟩, Hg⟩, Ho, ⟨%e0, H0⟩, ⟨%e1, H1⟩, ⟨%e2, H2⟩, ⟨%e3, H3⟩, ⟨%e4, H4⟩⟩
      iapply (runD c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _)
        (fun h => by have := (hcond1 t).mp h; omega) (fun h => by have := (hcond2 t).mp h; omega) (fun h => hz ((hcond3 t).mp h)) ((hcond4 t).mpr h50')
        (iblk m c 0 t) (iblk m c 1 t) (iblk m c 2 t) (iblk m c 3 t) _ d0 (S1 m c) d2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]
          · iexists _; iexact HS0
          isplitl [HS1]
          · iexact HS1
          iexists _; iexact HS2
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_hi m c _ (by rw [Fin.val_last]; have : cfg0.N = 100 := N_0; omega), PhiA0_eq]
  iintro ⟨⟨HS0, HS1, HS2⟩, Hg⟩
  isplitl [HS0 HS1 HS2]
  · isplitl [HS0]; · iexact HS0
    isplitl [HS1]; · iexists _; iexact HS1
    iexact HS2
  iexact Hg

/-! ## The run and the frame -/

set_option backward.isDefEq.respectTransparency.types false in
/-- Every weakly fair execution of @main terminates, and every final state has every array of the pipeline at what
    the proof data say and every other unscoped buffer as at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates, faults nowhere and leaves the four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KI.Pay.lean ====
/-
  The kernel's six stored values read at an index, at the ideal instance, where a float is an extended real, a rounding
  to a narrower format or a widening is the identity, and a block product into the zero accumulator is a plain sum over
  the contracted axis.

  Each of the four block products of the body contracts axis 1 of its left operand with axis 0 of its right operand:
  at row `r` and column `j` it is the sum over `k` of left (r, k) times right (k, j). The contraction's index set has
  one axis, so the sum over it is re-indexed by that axis' coordinate. A cast between [1, a, b] and [a, b] reads the
  same entry with the unit coordinate dropped or added; a cast of a shape to itself is the identity.

  From these: slab `p` of the first layer's projections is the feature block times weight slab `p`; slab `p` of the
  second layer's projections is the hidden activation times weight slab `p`; a row block of the hidden activation is
  the larger of the zero literal and the sum of the two adjacency-slab-times-projection-slab products; a row block of
  the result is the sum of the two such products.
-/
import proofs.«117537_g30743375904967_cont_9to1_575_9_alg».proof.Proof.KI.Shared
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen Cert.KernelIdeal.Hand

/-! ## The four block products at an index

For each product: the left operand's index at output index `i` and contraction index `q` has `i`'s row on axis 0 and
`q`'s coordinate on axis 1; the right operand's has `q`'s coordinate on axis 0 and `i`'s column on axis 1. -/

/-! ### The [10000,128] × [128,128] product -/

theorem matmul_proj0_apply_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem matmul_proj0_apply_lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem matmul_proj0_apply_rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem matmul_proj0_apply_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a [10000,128] block and a [128,128] block into the zero accumulator, read at row `r` and column `j`:
    the sum over the one contracted axis of the products of the operands' entries. -/
theorem matmul_proj0_apply {φ₁ φ₂ : FTy} (x : FVec Ideal S10000x128 φ₁) (y : FVec Ideal S128x128 φ₂) (r : Fin 10000) (j : Fin 128) :
    matmul dot_S10000x128_S128x128_S10000x128_1_0_0_1_n_n none x y (constant (F := Ideal) S10000x128 .f32 0x00000000#32) (ix2 r j)
      = ∑ k : Fin 128, x (ix2 r k) * y (ix2 k j) := by
  refine (Ideal.matmul_constant_zero_apply dot_S10000x128_S128x128_S10000x128_1_0_0_1_n_n none x y (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun a => Fin.ext (by
    match a with
    | ⟨0, _⟩ => exact matmul_proj0_apply_lhs0 _ _
    | ⟨1, _⟩ => exact (matmul_proj0_apply_lhs1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun a => Fin.ext (by
    match a with
    | ⟨0, _⟩ => exact (matmul_proj0_apply_rhs0 _ _).trans hk
    | ⟨1, _⟩ => exact matmul_proj0_apply_rhs1 _ _)
  rw [el, er]

/-! ### The [200,10000] × [10000,128] product -/

theorem matmul_hid_apply_lhs0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem matmul_hid_apply_lhs1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem matmul_hid_apply_rhs0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem matmul_hid_apply_rhs1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product of a [200,10000] block and a [10000,128] block into the zero accumulator, read at row `r` and column `j`:
    the sum over the one contracted axis of the products of the operands' entries. -/
theorem matmul_hid_apply {φ₁ φ₂ : FTy} (x : FVec Ideal S200x10000 φ₁) (y : FVec Ideal S10000x128 φ₂) (r : Fin 200) (j : Fin 128) :
    matmul dot_S200x10000_S10000x128_S200x128_1_0_0_1_n_n none x y (constant (F := Ideal) S200x128 .f32 0x00000000#32) (ix2 r j)
      = ∑ k : Fin 10000, x (ix2 r k) * y (ix2 k j) := by
  refine (Ideal.matmul_constant_zero_apply dot_S200x10000_S10000x128_S200x128_1_0_0_1_n_n none x y (ix2 r j)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r j) ((contrEquiv1 dot_S200x10000_S10000x128_S200x128_1_0_0_1_n_n 10000 rfl rfl).symm k) = ix2 r k := funext fun a => Fin.ext (by
    match a with
    | ⟨0, _⟩ => exact matmul_hid_apply_lhs0 _ _
    | ⟨1, _⟩ => exact (matmul_hid_apply_lhs1 _ _).trans hk)
  have er : dot_S200x10000_S10000x128_S200x128_1_0_0_1_n_n.rhsIdx (ix2 r j) ((contrEquiv1 dot_S200x10000_S10000x128_S200x128_1_0_0_1_n_n 10000 rfl rfl).symm k) = ix2 k j := funext fun a => Fin.ext (by
    match a with
    | ⟨0, _⟩ => exact (matmul_hid_apply_rhs0 _ _).trans hk
    | ⟨1, _⟩ => exact matmul_hid_apply_rhs1 _ _)
  rw [el, er]

/-! ### The [10000,128] × [128,64] product -/

theorem matmul_proj1_apply_lhs0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem matmul_proj1_apply_lhs1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem matmul_proj1_apply_rhs0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem matmul_proj1_apply_rhs1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product of a [10000,128] block and a [128,64] block into the zero accumulator, read at row `r` and column `j`:
    the sum over the one contracted axis of the products of the operands' entries. -/
theorem matmul_proj1_apply {φ₁ φ₂ : FTy} (x : FVec Ideal S10000x128 φ₁) (y : FVec Ideal S128x64 φ₂) (r : Fin 10000) (j : Fin 64) :
    matmul dot_S10000x128_S128x64_S10000x64_1_0_0_1_n_n none x y (constant (F := Ideal) S10000x64 .f32 0x00000000#32) (ix2 r j)
      = ∑ k : Fin 128, x (ix2 r k) * y (ix2 k j) := by
  refine (Ideal.matmul_constant_zero_apply dot_S10000x128_S128x64_S10000x64_1_0_0_1_n_n none x y (ix2 r j)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r j) ((contrEquiv1 dot_S10000x128_S128x64_S10000x64_1_0_0_1_n_n 128 rfl rfl).symm k) = ix2 r k := funext fun a => Fin.ext (by
    match a with
    | ⟨0, _⟩ => exact matmul_proj1_apply_lhs0 _ _
    | ⟨1, _⟩ => exact (matmul_proj1_apply_lhs1 _ _).trans hk)
  have er : dot_S10000x128_S128x64_S10000x64_1_0_0_1_n_n.rhsIdx (ix2 r j) ((contrEquiv1 dot_S10000x128_S128x64_S10000x64_1_0_0_1_n_n 128 rfl rfl).symm k) = ix2 k j := funext fun a => Fin.ext (by
    match a with
    | ⟨0, _⟩ => exact (matmul_proj1_apply_rhs0 _ _).trans hk
    | ⟨1, _⟩ => exact matmul_proj1_apply_rhs1 _ _)
  rw [el, er]

/-! ### The [200,10000] × [10000,64] product -/

theorem matmul_out_apply_lhs0 (i : S200x64.Idx) (q : dot_S200x10000_S10000x64_S200x64_1_0_0_1_n_n.contr.Idx) :
    (dot_S200x10000_S10000x64_S200x64_1_0_0_1_n_n.lhsIdx i q 0).val = (i 0).val := by
  unfold DotDims.lhsIdx
  rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
  rfl
theorem matmul_out_apply_lhs1 (i : S200x64.Idx) (q : dot_S200x10000_S10000x64_S200x64_1_0_0_1_n_n.contr.Idx) :
    (dot_S200x10000_S10000x64_S200x64_1_0_0_1_n_n.lhsIdx i q 1).val = (q ⟨0, by decide⟩).val :=
  dot_S200x10000_S10000x64_S200x64_1_0_0_1_n_n.lhsIdx_val_of_single rfl i q
theorem matmul_out_apply_rhs0 (i : S200x64.Idx) (q : dot_S200x10000_S10000x64_S200x64_1_0_0_1_n_n.contr.Idx) :
    (dot_S200x10000_S10000x64_S200x64_1_0_0_1_n_n.rhsIdx i q 0).val = (q ⟨0, by decide⟩).val :=
  dot_S200x10000_S10000x64_S200x64_1_0_0_1_n_n.rhsIdx_val_of_single rfl i q
theorem matmul_out_apply_rhs1 (i : S200x64.Idx) (q : dot_S200x10000_S10000x64_S200x64_1_0_0_1_n_n.contr.Idx) :
    (dot_S200x10000_S10000x64_S200x64_1_0_0_1_n_n.rhsIdx i q 1).val = (i 1).val := by
  unfold DotDims.rhsIdx
  rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
  rfl

/-- The product of a [200,10000] block and a [10000,64] block into the zero accumulator, read at row `r` and column `j`:
    the sum over the one contracted axis of the products of the operands' entries. -/
theorem matmul_out_apply {φ₁ φ₂ : FTy} (x : FVec Ideal S200x10000 φ₁) (y : FVec Ideal S10000x64 φ₂) (r : Fin 200) (j : Fin 64) :
    matmul dot_S200x10000_S10000x64_S200x64_1_0_0_1_n_n none x y (constant (F := Ideal) S200x64 .f32 0x00000000#32) (ix2 r j)
      = ∑ k : Fin 10000, x (ix2 r k) * y (ix2 k j) := by
  refine (Ideal.matmul_constant_zero_apply dot_S200x10000_S10000x64_S200x64_1_0_0_1_n_n none x y (ix2 r j)).trans ?_
  rw [← Equiv.sum_comp (contrEquiv1 dot_S200x10000_S10000x64_S200x64_1_0_0_1_n_n 10000 rfl rfl).symm]
  refine Finset.sum_congr rfl fun k _ => ?_
  have hk := contrEquiv1_symm_val dot_S200x10000_S10000x64_S200x64_1_0_0_1_n_n 10000 rfl rfl k
  have el : dot_S200x10000_S10000x64_S200x64_1_0_0_1_n_n.lhsIdx (ix2 r j) ((contrEquiv1 dot_S200x10000_S10000x64_S200x64_1_0_0_1_n_n 10000 rfl rfl).symm k) = ix2 r k := funext fun a => Fin.ext (by
    match a with
    | ⟨0, _⟩ => exact matmul_out_apply_lhs0 _ _
    | ⟨1, _⟩ => exact (matmul_out_apply_lhs1 _ _).trans hk)
  have er : dot_S200x10000_S10000x64_S200x64_1_0_0_1_n_n.rhsIdx (ix2 r j) ((contrEquiv1 dot_S200x10000_S10000x64_S200x64_1_0_0_1_n_n 10000 rfl rfl).symm k) = ix2 k j := funext fun a => Fin.ext (by
    match a with
    | ⟨0, _⟩ => exact (matmul_out_apply_rhs0 _ _).trans hk
    | ⟨1, _⟩ => exact matmul_out_apply_rhs1 _ _)
  rw [el, er]

/-! ## The six payloads at an index -/

/-- The first layer's projection by one weight slab: feature block times weight. -/
theorem pay1_apply (v12 : Vec Ideal S10000x128 .f32) (v13 : Vec Ideal S1x128x128 .f32) (r : Fin 10000) (j : Fin 128) :
    k0_pay1 (F := Ideal) v12 v13 (ix3 (0 : Fin 1) r j) = ∑ k : Fin 128, v12 (ix2 r k) * v13 (ix3 (0 : Fin 1) k j) := by
  unfold k0_pay1
  refine (shapeCast_ab_1ab_apply _ _ (0 : Fin 1) r j).trans ?_
  refine (matmul_proj0_apply v12 _ r j).trans ?_
  exact Finset.sum_congr rfl fun k _ => congrArg (v12 (ix2 r k) * ·) (shapeCast_1ab_ab_apply v13 _ k j)

theorem pay2_apply (v12 : Vec Ideal S10000x128 .f32) (v19 : Vec Ideal S1x128x128 .f32) (r : Fin 10000) (j : Fin 128) :
    k0_pay2 (F := Ideal) v12 v19 (ix3 (0 : Fin 1) r j) = ∑ k : Fin 128, v12 (ix2 r k) * v19 (ix3 (0 : Fin 1) k j) := by
  unfold k0_pay2
  refine (shapeCast_ab_1ab_apply _ _ (0 : Fin 1) r j).trans ?_
  refine (matmul_proj0_apply v12 _ r j).trans ?_
  exact Finset.sum_congr rfl fun k _ => congrArg (v12 (ix2 r k) * ·) (shapeCast_1ab_ab_apply v19 _ k j)

/-- The second layer's projection by one weight slab: the weight's rounding to the narrower format is the identity on
    the extended reals, so this is hidden activation times weight. -/
theorem pay4_apply (v12 : Vec Ideal S10000x128 .bf16) (v13 : Vec Ideal S1x128x64 .f32) (r : Fin 10000) (j : Fin 64) :
    k0_pay4 (F := Ideal) v12 v13 (ix3 (0 : Fin 1) r j) = ∑ k : Fin 128, v12 (ix2 r k) * v13 (ix3 (0 : Fin 1) k j) := by
  unfold k0_pay4
  refine (shapeCast_ab_1ab_apply _ _ (0 : Fin 1) r j).trans ?_
  refine (matmul_proj1_apply v12 _ r j).trans ?_
  exact Finset.sum_congr rfl fun k _ => congrArg (v12 (ix2 r k) * ·) ((truncf_apply (φ := .f32) (ψ := .bf16) _ Facts₀.bitsLt_bf16_f32 (ix2 k j)).trans (shapeCast_1ab_ab_apply v13 _ k j))

theorem pay5_apply (v12 : Vec Ideal S10000x128 .bf16) (v20 : Vec Ideal S1x128x64 .f32) (r : Fin 10000) (j : Fin 64) :
    k0_pay5 (F := Ideal) v12 v20 (ix3 (0 : Fin 1) r j) = ∑ k : Fin 128, v12 (ix2 r k) * v20 (ix3 (0 : Fin 1) k j) := by
  unfold k0_pay5
  refine (shapeCast_ab_1ab_apply _ _ (0 : Fin 1) r j).trans ?_
  refine (matmul_proj1_apply v12 _ r j).trans ?_
  exact Finset.sum_congr rfl fun k _ => congrArg (v12 (ix2 r k) * ·) ((truncf_apply (φ := .f32) (ψ := .bf16) _ Facts₀.bitsLt_bf16_f32 (ix2 k j)).trans (shapeCast_1ab_ab_apply v20 _ k j))

/-- One adjacency slab times one projection slab, both read through the casts that drop their leading unit axis. -/
theorem hid_term (a : Vec Ideal S1x200x10000 .f32) (b : Vec Ideal S1x10000x128 .f32) (r : Fin 200) (j : Fin 128) :
    matmul dot_S200x10000_S10000x128_S200x128_1_0_0_1_n_n none (shapeCast S200x10000 a Facts₀.shapeCasts_S1x200x10000_S200x10000 : FVec Ideal S200x10000 .f32) (shapeCast S10000x128 b Facts₀.shapeCasts_S1x10000x128_S10000x128 : FVec Ideal S10000x128 .f32)
        (constant (F := Ideal) S200x128 .f32 0x00000000#32) (ix2 r j)
      = ∑ k : Fin 10000, a (ix3 (0 : Fin 1) r k) * b (ix3 (0 : Fin 1) k j) := by
  refine (matmul_hid_apply _ _ r j).trans ?_
  exact Finset.sum_congr rfl fun k _ => congrArg₂ (· * ·) (shapeCast_1ab_ab_apply a _ r k) (shapeCast_1ab_ab_apply b _ k j)

theorem out_term (a : Vec Ideal S1x200x10000 .f32) (b : Vec Ideal S1x10000x64 .f32) (r : Fin 200) (j : Fin 64) :
    matmul dot_S200x10000_S10000x64_S200x64_1_0_0_1_n_n none (shapeCast S200x10000 a Facts₀.shapeCasts_S1x200x10000_S200x10000 : FVec Ideal S200x10000 .f32) (shapeCast S10000x64 b Facts₀.shapeCasts_S1x10000x64_S10000x64 : FVec Ideal S10000x64 .f32)
        (constant (F := Ideal) S200x64 .f32 0x00000000#32) (ix2 r j)
      = ∑ k : Fin 10000, a (ix3 (0 : Fin 1) r k) * b (ix3 (0 : Fin 1) k j) := by
  refine (matmul_out_apply _ _ r j).trans ?_
  exact Finset.sum_congr rfl fun k _ => congrArg₂ (· * ·) (shapeCast_1ab_ab_apply a _ r k) (shapeCast_1ab_ab_apply b _ k j)

/-- A row block of the hidden activation: the two adjacency-times-projection products added, the larger of that and the
    zero literal, and a rounding to the narrower format that is the identity on the extended reals. -/
theorem pay3_apply (v12 : Vec Ideal S1x200x10000 .f32) (v14 : Vec Ideal S1x10000x128 .f32) (v17 : Vec Ideal S1x200x10000 .f32) (v19 : Vec Ideal S1x10000x128 .f32)
    (r : Fin 200) (j : Fin 128) :
    k0_pay3 (F := Ideal) v12 v14 v17 v19 (ix2 r j)
      = max ((∑ k : Fin 10000, v12 (ix3 (0 : Fin 1) r k) * v14 (ix3 (0 : Fin 1) k j)) + (∑ k : Fin 10000, v17 (ix3 (0 : Fin 1) r k) * v19 (ix3 (0 : Fin 1) k j)))
          (Ideal.ofBits .f32 0x00000000#32) := by
  unfold k0_pay3
  refine (congrFun (shapeCast_self _ _) (ix2 r j)).trans ?_
  refine (truncf_apply (φ := .f32) (ψ := .bf16) _ Facts₀.bitsLt_bf16_f32 (ix2 r j)).trans ?_
  refine (maximumf_apply (φ := .f32) _ _ (ix2 r j)).trans ?_
  refine congrArg₂ max ((addf_apply (φ := .f32) _ _ (ix2 r j)).trans (congrArg₂ (· + ·) (hid_term v12 v14 r j) (hid_term v17 v19 r j))) rfl

/-- A row block of the result: the two adjacency-times-projection products added. -/
theorem pay6_apply (v12 : Vec Ideal S1x200x10000 .f32) (v14 : Vec Ideal S1x10000x64 .f32) (v17 : Vec Ideal S1x200x10000 .f32) (v19 : Vec Ideal S1x10000x64 .f32)
    (r : Fin 200) (j : Fin 64) :
    k0_pay6 (F := Ideal) v12 v14 v17 v19 (ix2 r j)
      = (∑ k : Fin 10000, v12 (ix3 (0 : Fin 1) r k) * v14 (ix3 (0 : Fin 1) k j)) + (∑ k : Fin 10000, v17 (ix3 (0 : Fin 1) r k) * v19 (ix3 (0 : Fin 1) k j)) := by
  unfold k0_pay6
  exact (addf_apply (φ := .f32) _ _ (ix2 r j)).trans (congrArg₂ (· + ·) (out_term v12 v14 r j) (out_term v17 v19 r j))

/-! ## What the stores leave behind, at an index -/

/-- The first layer's projections: slab `p` is the feature block times weight slab `p`. -/
theorem B0of_apply (x1 : Vec Ideal S10000x128 .f32) (x2 : Vec Ideal S2x128x128 .f32) (p : Fin 2) (r : Fin 10000) (j : Fin 128) :
    B0of (F := Ideal) x1 x2 (ix3 p r j) = ∑ k : Fin 128, x1 (ix2 r k) * x2 (ix3 p k j) := by
  unfold B0of two3
  show (if p.val = 0 then k0_pay1 (F := Ideal) x1 (sl3 0 x2) (ix3 (0 : Fin 1) r j) else k0_pay2 (F := Ideal) x1 (sl3 1 x2) (ix3 (0 : Fin 1) r j)) = _
  rcases (by omega : p.val = 0 ∨ p.val = 1) with h | h
  · rw [if_pos h]
    obtain rfl : p = 0 := Fin.ext h
    exact pay1_apply x1 (sl3 0 x2) r j
  · rw [if_neg (by omega)]
    obtain rfl : p = 1 := Fin.ext h
    exact pay2_apply x1 (sl3 1 x2) r j

/-- The second layer's projections: slab `p` is the hidden activation times weight slab `p`. -/
theorem B1of_apply (s2 : Vec Ideal S10000x128 .bf16) (x3 : Vec Ideal S2x128x64 .f32) (p : Fin 2) (r : Fin 10000) (j : Fin 64) :
    B1of (F := Ideal) s2 x3 (ix3 p r j) = ∑ k : Fin 128, s2 (ix2 r k) * x3 (ix3 p k j) := by
  unfold B1of two3
  show (if p.val = 0 then k0_pay4 (F := Ideal) s2 (sl3 0 x3) (ix3 (0 : Fin 1) r j) else k0_pay5 (F := Ideal) s2 (sl3 1 x3) (ix3 (0 : Fin 1) r j)) = _
  rcases (by omega : p.val = 0 ∨ p.val = 1) with h | h
  · rw [if_pos h]
    obtain rfl : p = 0 := Fin.ext h
    exact pay4_apply s2 (sl3 0 x3) r j
  · rw [if_neg (by omega)]
    obtain rfl : p = 1 := Fin.ext h
    exact pay5_apply s2 (sl3 1 x3) r j

/-- A row block of the hidden activation from both adjacency slabs and both projection slabs. -/
theorem hidBlk_apply (x0 : Vec Ideal S2x200x10000 .f32) (s0 : Vec Ideal S2x10000x128 .f32) (r : Fin 200) (j : Fin 128) :
    hidBlk (F := Ideal) x0 s0 (ix2 r j)
      = max ((∑ k : Fin 10000, x0 (ix3 (0 : Fin 2) r k) * s0 (ix3 (0 : Fin 2) k j)) + (∑ k : Fin 10000, x0 (ix3 (1 : Fin 2) r k) * s0 (ix3 (1 : Fin 2) k j))) (Ideal.ofBits .f32 0x00000000#32) := by
  unfold hidBlk
  exact pay3_apply (sl3 0 x0) (sl3 0 s0) (sl3 1 x0) (sl3 1 s0) r j

/-- A row block of the result from both adjacency slabs and both projection slabs. -/
theorem outBlk_apply (x0 : Vec Ideal S2x200x10000 .f32) (s1 : Vec Ideal S2x10000x64 .f32) (r : Fin 200) (j : Fin 64) :
    outBlk (F := Ideal) x0 s1 (ix2 r j)
      = (∑ k : Fin 10000, x0 (ix3 (0 : Fin 2) r k) * s1 (ix3 (0 : Fin 2) k j)) + (∑ k : Fin 10000, x0 (ix3 (1 : Fin 2) r k) * s1 (ix3 (1 : Fin 2) k j)) := by
  unfold outBlk
  exact pay6_apply (sl3 0 x0) (sl3 0 s1) (sl3 1 x0) (sl3 1 s1) r j

end Cert.KernelIdeal.Pay

end
-- ==== Proof.Spec.lean ====
/-
  The function both programs compute, on the extended reals, index by index.

  With x : [10000,128], A : [2,10000,10000], W0 : [2,128,128], W1 : [2,128,64]:
    proj0 p r j  = Σ_k x[r,k] · W0[p,k,j]                       (the first layer's projected features, per power p)
    hidden r j   = max (Σ_k A[0,r,k]·proj0 0 k j + Σ_k A[1,r,k]·proj0 1 k j) 0
    proj1 p r j  = Σ_k hidden r k · W1[p,k,j]
    out r j      = Σ_k A[0,r,k]·proj1 0 k j + Σ_k A[1,r,k]·proj1 1 k j
  Only commutative-monoid structure of the extended reals is used to join the two programs (a leading zero summand on
  one side), so nothing here needs the inputs to be finite.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![10000, 128]⟩
abbrev SA : Shape := ⟨3, ![2, 10000, 10000]⟩
abbrev SW0 : Shape := ⟨3, ![2, 128, 128]⟩
abbrev SW1 : Shape := ⟨3, ![2, 128, 64]⟩
abbrev SP0 : Shape := ⟨3, ![2, 10000, 128]⟩
abbrev SP1 : Shape := ⟨3, ![2, 10000, 64]⟩
abbrev SO : Shape := ⟨2, ![10000, 64]⟩

/-- The zero both programs take the maximum against: the f32 pattern of +0.0 read at the ideal instance. -/
abbrev zeroLit : EReal := Ideal.ofBits .f32 0x00000000#32

variable (x : SX.Idx → EReal) (A : SA.Idx → EReal) (W0 : SW0.Idx → EReal) (W1 : SW1.Idx → EReal)

/-- Row r of x times column j of the p-th first-layer weight. -/
def proj0 (p : Fin 2) (r : Fin 10000) (j : Fin 128) : EReal := ∑ k : Fin 128, x (ix2 r k) * W0 (ix3 p k j)

/-- The hidden activation: both adjacency powers applied to their projected features, summed, clamped below at zero. -/
def hidden (r : Fin 10000) (j : Fin 128) : EReal :=
  max ((∑ k : Fin 10000, A (ix3 (0 : Fin 2) r k) * proj0 x W0 0 k j) + (∑ k : Fin 10000, A (ix3 (1 : Fin 2) r k) * proj0 x W0 1 k j)) zeroLit

/-- Row r of the hidden activation times column j of the p-th second-layer weight. -/
def proj1 (p : Fin 2) (r : Fin 10000) (j : Fin 64) : EReal := ∑ k : Fin 128, hidden x A W0 r k * W1 (ix3 p k j)

/-- The result at row r, column j. -/
def out (r : Fin 10000) (j : Fin 64) : EReal :=
  (∑ k : Fin 10000, A (ix3 (0 : Fin 2) r k) * proj1 x A W0 W1 0 k j) + (∑ k : Fin 10000, A (ix3 (1 : Fin 2) r k) * proj1 x A W0 W1 1 k j)

/-- The same four as whole arrays. -/
def P0 : SP0.Idx → EReal := fun y => proj0 x W0 (y 0) (y 1) (y 2)
def Hid : SX.Idx → EReal := fun y => hidden x A W0 (y 0) (y 1)
def P1 : SP1.Idx → EReal := fun y => proj1 x A W0 W1 (y 0) (y 1) (y 2)
def Out : SO.Idx → EReal := fun y => out x A W0 W1 (y 0) (y 1)

theorem P0_ix3 (p : Fin 2) (r : Fin 10000) (j : Fin 128) : P0 x W0 (ix3 p r j) = proj0 x W0 p r j := rfl
theorem Hid_ix2 (r : Fin 10000) (j : Fin 128) : Hid x A W0 (ix2 r j) = hidden x A W0 r j := rfl
theorem P1_ix3 (p : Fin 2) (r : Fin 10000) (j : Fin 64) : P1 x A W0 W1 (ix3 p r j) = proj1 x A W0 W1 p r j := rfl
theorem Out_ix2 (r : Fin 10000) (j : Fin 64) : Out x A W0 W1 (ix2 r j) = out x A W0 W1 r j := rfl

end Cert.Spec

end
-- ==== Proof.KI.Value.lean ====
/-
  The kernel's result at the ideal instance, index by index.

  Every input window's block is rows of its argument array (the adjacency window's block at a point is row block
  (point mod 50) of both adjacency powers; the other three windows hold their whole arrays). Hence, in the order the run
  produces them: the first scratch holds x·W0_p; the block of the hidden activation a point t < 50 computes is rows
  200t … 200t+199 of max(A_0·(x·W0_0) + A_1·(x·W0_1), 0); the second scratch holds hidden·W1_p; and the block a point
  t ≥ 50 leaves in the output window is rows 200(t−50) … of A_0·(hidden·W1_0) + A_1·(hidden·W1_1). The blocks written
  back at points 50 … 99 tile the result array.
-/
import proofs.«117537_g30743375904967_cont_9to1_575_9_alg».proof.Proof.KI.Data
import proofs.«117537_g30743375904967_cont_9to1_575_9_alg».proof.Proof.KI.Pay
import proofs.«117537_g30743375904967_cont_9to1_575_9_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay

variable (m : (ℓ : Loc nD τ sig) → Buf (Elt Ideal) ℓ) (ρ : Dev nD → PrngReg)

/-! ## The argument arrays -/

abbrev xA (c : Dev nD) : Vec Ideal S10000x128 .f32 := m ((c : Thread nD τ).loc main_arg0)
abbrev AA (c : Dev nD) : Vec Ideal S2x10000x10000 .f32 := m ((c : Thread nD τ).loc main_arg1)
abbrev W0A (c : Dev nD) : Vec Ideal S2x128x128 .f32 := m ((c : Thread nD τ).loc main_arg2)
abbrev W1A (c : Dev nD) : Vec Ideal S2x128x64 .f32 := m ((c : Thread nD τ).loc main_arg3)

/-- The function of the arguments the result array ends at. -/
abbrev G (c : Dev nD) : Buf (Elt Ideal) ((c : Thread nD τ).loc main_v0) := Cert.Spec.Out (xA m c) (AA m c) (W0A m c) (W1A m c)

/-! ## The windows' blocks as rows of the arguments -/

theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_2 : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)
theorem index_3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)

/-- The adjacency window's block at point `t` is rows 200·(t mod 50) … of both powers. -/
theorem iblk0_apply (c : Dev nD) (t : Fin cfg0.N) (y : S2x200x10000.Idx) (k : S2x10000x10000.Idx)
    (hk0 : (k 0).val = (y 0).val) (hk1 : (k 1).val = 200 * (t.val % 50) + (y 1).val) (hk2 : (k 2).val = (y 2).val) :
    (iblk m c 0 t : Vec Ideal S2x200x10000 .f32) y = AA m c k := by
  have hi := index_0 t
  unfold iblk
  rw [View.read_apply]
  show V m c main_arg1 _ = m (c.tc.loc main_arg1) _
  unfold V
  congr 1
  funext a
  apply Fin.ext
  match a with
  | ⟨0, _⟩ => show win0_0.index t 0 * 2 + 1 * (y 0).val = (k 0).val; rw [hi.1, hk0]; omega
  | ⟨1, _⟩ => show win0_0.index t 1 * 200 + 1 * (y 1).val = (k 1).val; rw [hi.2.1, hk1]; omega
  | ⟨2, _⟩ => show win0_0.index t 2 * 10000 + 1 * (y 2).val = (k 2).val; rw [hi.2.2, hk2]; omega

/-- The feature window's block is the whole feature array at every point. -/
theorem iblk1_eq (c : Dev nD) (t : Fin cfg0.N) : (iblk m c 1 t : Vec Ideal S10000x128 .f32) = xA m c := by
  have hi := index_1 t
  funext y
  unfold iblk
  rw [View.read_apply]
  show V m c main_arg0 _ = m (c.tc.loc main_arg0) _
  unfold V
  congr 1
  funext a
  apply Fin.ext
  match a with
  | ⟨0, _⟩ => show win0_1.index t 0 * 10000 + 1 * (y 0).val = (y 0).val; rw [hi.1]; omega
  | ⟨1, _⟩ => show win0_1.index t 1 * 128 + 1 * (y 1).val = (y 1).val; rw [hi.2]; omega

/-- The first weight window's block is the whole first-layer weight array at every point. -/
theorem iblk2_eq (c : Dev nD) (t : Fin cfg0.N) : (iblk m c 2 t : Vec Ideal S2x128x128 .f32) = W0A m c := by
  have hi := index_2 t
  funext y
  unfold iblk
  rw [View.read_apply]
  show V m c main_arg2 _ = m (c.tc.loc main_arg2) _
  unfold V
  congr 1
  funext a
  apply Fin.ext
  match a with
  | ⟨0, _⟩ => show win0_2.index t 0 * 2 + 1 * (y 0).val = (y 0).val; rw [hi.1]; omega
  | ⟨1, _⟩ => show win0_2.index t 1 * 128 + 1 * (y 1).val = (y 1).val; rw [hi.2.1]; omega
  | ⟨2, _⟩ => show win0_2.index t 2 * 128 + 1 * (y 2).val = (y 2).val; rw [hi.2.2]; omega

/-- The second weight window's block is the whole second-layer weight array at every point. -/
theorem iblk3_eq (c : Dev nD) (t : Fin cfg0.N) : (iblk m c 3 t : Vec Ideal S2x128x64 .f32) = W1A m c := by
  have hi := index_3 t
  funext y
  unfold iblk
  rw [View.read_apply]
  show V m c main_arg3 _ = m (c.tc.loc main_arg3) _
  unfold V
  congr 1
  funext a
  apply Fin.ext
  match a with
  | ⟨0, _⟩ => show win0_3.index t 0 * 2 + 1 * (y 0).val = (y 0).val; rw [hi.1]; omega
  | ⟨1, _⟩ => show win0_3.index t 1 * 128 + 1 * (y 1).val = (y 1).val; rw [hi.2.1]; omega
  | ⟨2, _⟩ => show win0_3.index t 2 * 64 + 1 * (y 2).val = (y 2).val; rw [hi.2.2]; omega

/-! ## What the run passes through, as the specification's functions -/

/-- The first scratch holds the first layer's projections x·W0_p. -/
theorem S0_eq (c : Dev nD) : S0 m c = B0of (xA m c) (W0A m c) := by
  unfold S0
  exact congrArg₂ B0of (iblk1_eq m c t0) (iblk2_eq m c t0)

theorem S0_apply (c : Dev nD) (p : Fin 2) (r : Fin 10000) (j : Fin 128) :
    S0 m c (ix3 p r j) = Cert.Spec.proj0 (xA m c) (W0A m c) p r j := by
  rw [S0_eq]
  exact B0of_apply (xA m c) (W0A m c) p r j

/-- A block computed from rows R of both adjacency powers and the first layer's projections is row R of the hidden activation. -/
theorem hidBlk_spec (x0 : Vec Ideal S2x200x10000 .f32) (s0 : Vec Ideal S2x10000x128 .f32)
    (x : Vec Ideal S10000x128 .f32) (A : Vec Ideal S2x10000x10000 .f32) (W0 : Vec Ideal S2x128x128 .f32)
    (r : Fin 200) (j : Fin 128) (R : Fin 10000)
    (hx : ∀ (p : Fin 2) (k : Fin 10000), x0 (ix3 p r k) = A (ix3 p R k))
    (hs : ∀ (p : Fin 2) (k : Fin 10000), s0 (ix3 p k j) = Cert.Spec.proj0 x W0 p k j) :
    hidBlk (F := Ideal) x0 s0 (ix2 r j) = Cert.Spec.hidden x A W0 R j := by
  rw [hidBlk_apply]
  unfold Cert.Spec.hidden Cert.Spec.zeroLit
  simp only [hx, hs]

/-- The block of the hidden activation a point below 50 computes is rows 200·t … 200·t+199 of the hidden activation. -/
theorem hid_apply (c : Dev nD) (t : Fin cfg0.N) (ht : t.val < 50) (r : Fin 200) (j : Fin 128) (R : Fin 10000)
    (hR : R.val = 200 * t.val + r.val) :
    hid m c t (ix2 r j) = Cert.Spec.hidden (xA m c) (AA m c) (W0A m c) R j :=
  hidBlk_spec (iblk m c 0 t) (S0 m c) (xA m c) (AA m c) (W0A m c) r j R
    (fun p k => iblk0_apply m c t (ix3 p r k) (ix3 p R k) rfl (by show R.val = 200 * (t.val % 50) + r.val; rw [Nat.mod_eq_of_lt ht]; exact hR) rfl)
    (fun p k => S0_apply m c p k j)

/-- The assembled hidden activation is the specification's. -/
theorem HidFull_eq (c : Dev nD) : HidFull m c = Cert.Spec.Hid (xA m c) (AA m c) (W0A m c) := by
  funext y
  have hy := idx2_lt0 y
  unfold HidFull Cert.Spec.Hid
  exact hid_apply m c _ (by show (y 0).val / 200 < 50; omega) _ (y 1) (y 0) (by show (y 0).val = 200 * ((y 0).val / 200) + (y 0).val % 200; omega)

/-- The second scratch holds the second layer's projections hidden·W1_p. -/
theorem S1_apply (c : Dev nD) (p : Fin 2) (r : Fin 10000) (j : Fin 64) :
    S1 m c (ix3 p r j) = Cert.Spec.proj1 (xA m c) (AA m c) (W0A m c) (W1A m c) p r j := by
  unfold S1
  rw [HidFull_eq, iblk3_eq]
  exact B1of_apply _ (W1A m c) p r j

/-- A block computed from rows R of both adjacency powers and the second layer's projections is row R of the result. -/
theorem outBlk_spec (x0 : Vec Ideal S2x200x10000 .f32) (s1 : Vec Ideal S2x10000x64 .f32)
    (x : Vec Ideal S10000x128 .f32) (A : Vec Ideal S2x10000x10000 .f32) (W0 : Vec Ideal S2x128x128 .f32) (W1 : Vec Ideal S2x128x64 .f32)
    (r : Fin 200) (j : Fin 64) (R : Fin 10000)
    (hx : ∀ (p : Fin 2) (k : Fin 10000), x0 (ix3 p r k) = A (ix3 p R k))
    (hs : ∀ (p : Fin 2) (k : Fin 10000), s1 (ix3 p k j) = Cert.Spec.proj1 x A W0 W1 p k j) :
    outBlk (F := Ideal) x0 s1 (ix2 r j) = Cert.Spec.out x A W0 W1 R j := by
  rw [outBlk_apply]
  unfold Cert.Spec.out
  simp only [hx, hs]

/-- The block a point from 50 on leaves in the output window is rows 200·(t−50) … of the result. -/
theorem O_apply (c : Dev nD) (t : Fin cfg0.N) (ht : 50 ≤ t.val) (y : S200x64.Idx) (R : Fin 10000) (J : Fin 64)
    (hR : R.val = 200 * (t.val - 50) + (y 0).val) (hJ : J.val = (y 1).val) :
    O m c t y = Cert.Spec.out (xA m c) (AA m c) (W0A m c) (W1A m c) R J := by
  have hN : t.val < 100 := lt_of_lt_of_eq t.isLt (show cfg0.N = 100 from N_0)
  obtain ⟨r, j, rfl⟩ : ∃ (r : Fin 200) (j : Fin 64), y = ix2 r j := ⟨y 0, y 1, eq_ix2 y⟩
  obtain rfl : J = j := Fin.ext hJ
  have hR' : R.val = 200 * (t.val - 50) + r.val := hR
  exact outBlk_spec (iblk m c 0 t) (S1 m c) (xA m c) (AA m c) (W0A m c) (W1A m c) r J R
    (fun p k => iblk0_apply m c t (ix3 p r k) (ix3 p R k) rfl (by show R.val = 200 * (t.val % 50) + r.val; omega) rfl)
    (fun p k => S1_apply m c p k J)

/-! ## The result array after the run -/

theorem xsize_4 : ∀ t : Fin cfg0.N, win0_4.xsize (grid0.coords t) (0 : Fin 2) = 200 ∧ win0_4.xsize (grid0.coords t) (1 : Fin 2) = 64 :=
  (by decide +kernel : ∀ t : Fin grid0.N, win0_4.xsize (grid0.coords t) (0 : Fin 2) = 200 ∧ win0_4.xsize (grid0.coords t) (1 : Fin 2) = 64)

/-- What a point from 50 on writes back is its block of the result. -/
theorem flushed_eq (c : Dev nD) (t : Fin cfg0.N) (hf : (cfg0.win 4).flush t = true) :
    (dats m 0 c).flushed 4 t = ((cfg0.win 4).blk t).view.read (Elt Ideal) (G m c) := by
  have h50 : 50 ≤ t.val := by
    by_contra h
    rw [noFlush_4 t (by omega)] at hf
    exact Bool.false_ne_true hf
  show (cfg0.win 4).cut (grid0.coords t) ((dats m 0 c).after 4 t) = _
  rw [after_4]
  funext y
  rw [View.read_apply]
  refine (O_apply m c t h50 y ((((cfg0.win 4).blk t).view.emb y) 0) ((((cfg0.win 4).blk t).view.emb y) 1) ?_ ?_)
  · show win0_4.index t 0 * 200 + 1 * (y 0).val = _
    rw [(index_4 t h50).1]; omega
  · show win0_4.index t 1 * 64 + 1 * (y 1).val = _
    rw [(index_4 t h50).2]; omega

/-- The blocks written back at points 50 … 99 tile the result array, so it ends at the specification's function. -/
theorem final_o (c : Dev nD) : (dats m 0 c).arrAt 4 cfg0.N = G m c :=
  (dats m 0 c).arrAt_eq_of_cover 4 (G m c) (flushed_eq m c) fun i => by
    have h0 : (i 0 : Nat) < 10000 := idx2_lt0 i
    have h1 : (i 1 : Nat) < 64 := idx2_lt1 i
    have hT : 50 + (i 0 : Nat) / 200 < cfg0.N := by rw [show cfg0.N = 100 from N_0]; omega
    refine ⟨⟨50 + (i 0 : Nat) / 200, hT⟩, flush_4 _ (by show 50 ≤ 50 + (i 0 : Nat) / 200; omega), ?_⟩
    have hidx := index_4 ⟨50 + (i 0 : Nat) / 200, hT⟩ (by show 50 ≤ 50 + (i 0 : Nat) / 200; omega)
    have hx := xsize_4 ⟨50 + (i 0 : Nat) / 200, hT⟩
    show i ∈ ((View.whole main_v0).slice (win0_4.rect ⟨50 + (i 0 : Nat) / 200, hT⟩)).set
    rw [View.set_slice_whole, Rect.mem_set_unit]
    intro a
    match a with
    | ⟨0, _⟩ =>
      show win0_4.index ⟨50 + (i 0 : Nat) / 200, hT⟩ 0 * win0_4.size 0 ≤ (i 0 : Nat) ∧ (i 0 : Nat) < win0_4.index ⟨50 + (i 0 : Nat) / 200, hT⟩ 0 * win0_4.size 0 + win0_4.xsize (grid0.coords ⟨50 + (i 0 : Nat) / 200, hT⟩) 0
      rw [hidx.1, hx.1, show win0_4.size 0 = 200 from rfl]
      show (50 + (i 0 : Nat) / 200 - 50) * 200 ≤ (i 0 : Nat) ∧ (i 0 : Nat) < (50 + (i 0 : Nat) / 200 - 50) * 200 + 200
      omega
    | ⟨1, _⟩ =>
      show win0_4.index ⟨50 + (i 0 : Nat) / 200, hT⟩ 1 * win0_4.size 1 ≤ (i 1 : Nat) ∧ (i 1 : Nat) < win0_4.index ⟨50 + (i 0 : Nat) / 200, hT⟩ 1 * win0_4.size 1 + win0_4.xsize (grid0.coords ⟨50 + (i 0 : Nat) / 200, hT⟩) 1
      rw [hidx.2, hx.2]
      omega

/-- The kernel's run at the ideal instance: the result array ends at the specification's function of the argument
    arrays, which end unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final_o m c),
      ((h c).1 1).trans (((dats m 0 c).arrAt_in 1 rfl _).trans (A_eq m c 1)),
      ((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3))⟩)
    (run_main m ρ)

end Cert.KernelIdeal.Hand

end
-- ==== Proof.RefValue.lean ====
/-
  The reference program at the ideal instance computes the specification.

  The reference is a straight line of slices, reshapes, contractions, sums and one clamp. Read at an index (r, j), stage by stage:
    a slice of the leading axis at p followed by dropping that axis reads the array at (p, ·, ·);
    a contraction is the sum over its contracted coordinate of the products of its operands;
    the added zero array is the additive identity of the extended reals (0 + a = a, no finiteness needed);
    the clamp is the maximum against the zero word, kept as that word.
  Composed, the last stage is Spec.Out of the four arguments.
-/
import proofs.«117537_g30743375904967_cont_9to1_575_9_alg».proof.Defs
import proofs.«117537_g30743375904967_cont_9to1_575_9_alg».proof.Proof.Gen.ReferenceIdeal
import proofs.«117537_g30743375904967_cont_9to1_575_9_alg».proof.Proof.Gen.Pre_finite_inputs
import proofs.«117537_g30743375904967_cont_9to1_575_9_alg».proof.Proof.Gen.ReferenceIdeal.Run
import proofs.«117537_g30743375904967_cont_9to1_575_9_alg».proof.Proof.Gen.ReferenceIdeal.Read
import proofs.«117537_g30743375904967_cont_9to1_575_9_alg».proof.Proof.Spec
import Idealize.ShloMosaic.Lib.ValueIdx
import Idealize.ShloMosaic.PureOps.Ideal.Laws
import Idealize.ShloMosaic.Lib.Pipeline.Value
import Idealize.ShloMosaic.Lib.ValueLayout

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The sliced and reshaped operands at an index

Each operand of a contraction is a slice of the leading axis of an argument at p, with that unit axis dropped: at (r, k) it
reads the argument at (p, r, k). The reshape's row-major arithmetic is (r·n + k) / n = r and (r·n + k) % n = k for k < n. -/

/-- First layer, first adjacency power: A[0, r, k]. -/
theorem v2_ix (A : FVec Ideal S2x10000x10000 .f32) (r : Fin 10000) (k : Fin 10000) :
    val_main_v2 (F := Ideal) A (ix2 r k) = A (ix3 (0 : Fin 2) r k) := by
  rw [val_main_v2_apply, val_main_v1_apply]
  refine congrArg A (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- First layer, second adjacency power: A[1, r, k]. -/
theorem v9_ix (A : FVec Ideal S2x10000x10000 .f32) (r : Fin 10000) (k : Fin 10000) :
    val_main_v9 (F := Ideal) A (ix2 r k) = A (ix3 (1 : Fin 2) r k) := by
  rw [val_main_v9_apply, val_main_v8_apply]
  refine congrArg A (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- Second layer, first adjacency power: A[0, r, k]. -/
theorem v18_ix (A : FVec Ideal S2x10000x10000 .f32) (r : Fin 10000) (k : Fin 10000) :
    val_main_v18 (F := Ideal) A (ix2 r k) = A (ix3 (0 : Fin 2) r k) := by
  rw [val_main_v18_apply, val_main_v17_apply]
  refine congrArg A (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- Second layer, second adjacency power: A[1, r, k]. -/
theorem v25_ix (A : FVec Ideal S2x10000x10000 .f32) (r : Fin 10000) (k : Fin 10000) :
    val_main_v25 (F := Ideal) A (ix2 r k) = A (ix3 (1 : Fin 2) r k) := by
  rw [val_main_v25_apply, val_main_v24_apply]
  refine congrArg A (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- First-layer weight of power 0: W0[0, k, j]. -/
theorem v4_ix (W0 : FVec Ideal S2x128x128 .f32) (r : Fin 128) (k : Fin 128) :
    val_main_v4 (F := Ideal) W0 (ix2 r k) = W0 (ix3 (0 : Fin 2) r k) := by
  rw [val_main_v4_apply, val_main_v3_apply]
  refine congrArg W0 (funext fun a => Fin.ext ?_)
  have hr := r.isLt
  have hk := k.isLt
  match a with
  | ⟨0, _⟩ => rfl
  | ⟨1, _⟩ => show (r.val * 128 + k.val) / 128 % 128 = r.val; omega
  | ⟨2, _⟩ => show (r.val * 128 + k.val) % 128 = k.val; omega

/-- First-layer weight of power 1: W0[1, k, j]. -/
theorem v11_ix (W0 : FVec Ideal S2x128x128 .f32) (r : Fin 128) (k : Fin 128) :
    val_main_v11 (F := Ideal) W0 (ix2 r k) = W0 (ix3 (1 : Fin 2) r k) := by
  rw [val_main_v11_apply, val_main_v10_apply]
  refine congrArg W0 (funext fun a => Fin.ext ?_)
  have hr := r.isLt
  have hk := k.isLt
  match a with
  | ⟨0, _⟩ => rfl
  | ⟨1, _⟩ => show (r.val * 128 + k.val) / 128 % 128 = r.val; omega
  | ⟨2, _⟩ => show (r.val * 128 + k.val) % 128 = k.val; omega

/-- Second-layer weight of power 0: W1[0, k, j]. -/
theorem v20_ix (W1 : FVec Ideal S2x128x64 .f32) (r : Fin 128) (k : Fin 64) :
    val_main_v20 (F := Ideal) W1 (ix2 r k) = W1 (ix3 (0 : Fin 2) r k) := by
  rw [val_main_v20_apply, val_main_v19_apply]
  refine congrArg W1 (funext fun a => Fin.ext ?_)
  have hr := r.isLt
  have hk := k.isLt
  match a with
  | ⟨0, _⟩ => rfl
  | ⟨1, _⟩ => show (r.val * 64 + k.val) / 64 % 128 = r.val; omega
  | ⟨2, _⟩ => show (r.val * 64 + k.val) % 64 = k.val; omega

/-- Second-layer weight of power 1: W1[1, k, j]. -/
theorem v27_ix (W1 : FVec Ideal S2x128x64 .f32) (r : Fin 128) (k : Fin 64) :
    val_main_v27 (F := Ideal) W1 (ix2 r k) = W1 (ix3 (1 : Fin 2) r k) := by
  rw [val_main_v27_apply, val_main_v26_apply]
  refine congrArg W1 (funext fun a => Fin.ext ?_)
  have hr := r.isLt
  have hk := k.isLt
  match a with
  | ⟨0, _⟩ => rfl
  | ⟨1, _⟩ => show (r.val * 64 + k.val) / 64 % 128 = r.val; omega
  | ⟨2, _⟩ => show (r.val * 64 + k.val) % 64 = k.val; omega

/-! ## The first layer

A contraction of the second axis of its left operand with the first of its right operand, at (r, j), is the sum over k of
left[r, k] · right[k, j]. -/

/-- The features projected by the weight of power 0: Σ_k x[r,k] · W0[0,k,j]. -/
theorem v5_ix (x : FVec Ideal S10000x128 .f32) (W0 : FVec Ideal S2x128x128 .f32) (r : Fin 10000) (j : Fin 128) :
    val_main_v5 (F := Ideal) x W0 (ix2 r j) = Cert.Spec.proj0 x W0 (0 : Fin 2) r j := by
  rw [val_main_v5_apply]
  unfold Cert.Spec.proj0
  refine Finset.sum_congr rfl fun k _ => ?_
  have el : lidx_main_v5 (ix2 r j) k = ix2 r k := funext fun a => Fin.ext (by match a with | ⟨0, _⟩ => rfl | ⟨1, _⟩ => rfl)
  have er : ridx_main_v5 (ix2 r j) k = ix2 k j := funext fun a => Fin.ext (by match a with | ⟨0, _⟩ => rfl | ⟨1, _⟩ => rfl)
  rw [el, er, v4_ix]

/-- The features projected by the weight of power 1: Σ_k x[r,k] · W0[1,k,j]. -/
theorem v12_ix (x : FVec Ideal S10000x128 .f32) (W0 : FVec Ideal S2x128x128 .f32) (r : Fin 10000) (j : Fin 128) :
    val_main_v12 (F := Ideal) x W0 (ix2 r j) = Cert.Spec.proj0 x W0 (1 : Fin 2) r j := by
  rw [val_main_v12_apply]
  unfold Cert.Spec.proj0
  refine Finset.sum_congr rfl fun k _ => ?_
  have el : lidx_main_v12 (ix2 r j) k = ix2 r k := funext fun a => Fin.ext (by match a with | ⟨0, _⟩ => rfl | ⟨1, _⟩ => rfl)
  have er : ridx_main_v12 (ix2 r j) k = ix2 k j := funext fun a => Fin.ext (by match a with | ⟨0, _⟩ => rfl | ⟨1, _⟩ => rfl)
  rw [el, er, v11_ix]

/-- The first adjacency power applied to its projected features. -/
theorem v6_ix (x : FVec Ideal S10000x128 .f32) (A : FVec Ideal S2x10000x10000 .f32) (W0 : FVec Ideal S2x128x128 .f32)
    (r : Fin 10000) (j : Fin 128) :
    val_main_v6 (F := Ideal) x A W0 (ix2 r j) = ∑ k : Fin 10000, A (ix3 (0 : Fin 2) r k) * Cert.Spec.proj0 x W0 (0 : Fin 2) k j := by
  rw [val_main_v6_apply]
  refine Finset.sum_congr rfl fun k _ => ?_
  have el : lidx_main_v6 (ix2 r j) k = ix2 r k := funext fun a => Fin.ext (by match a with | ⟨0, _⟩ => rfl | ⟨1, _⟩ => rfl)
  have er : ridx_main_v6 (ix2 r j) k = ix2 k j := funext fun a => Fin.ext (by match a with | ⟨0, _⟩ => rfl | ⟨1, _⟩ => rfl)
  rw [el, er, v2_ix, v5_ix]

/-- The second adjacency power applied to its projected features. -/
theorem v13_ix (x : FVec Ideal S10000x128 .f32) (A : FVec Ideal S2x10000x10000 .f32) (W0 : FVec Ideal S2x128x128 .f32)
    (r : Fin 10000) (j : Fin 128) :
    val_main_v13 (F := Ideal) x A W0 (ix2 r j) = ∑ k : Fin 10000, A (ix3 (1 : Fin 2) r k) * Cert.Spec.proj0 x W0 (1 : Fin 2) k j := by
  rw [val_main_v13_apply]
  refine Finset.sum_congr rfl fun k _ => ?_
  have el : lidx_main_v13 (ix2 r j) k = ix2 r k := funext fun a => Fin.ext (by match a with | ⟨0, _⟩ => rfl | ⟨1, _⟩ => rfl)
  have er : ridx_main_v13 (ix2 r j) k = ix2 k j := funext fun a => Fin.ext (by match a with | ⟨0, _⟩ => rfl | ⟨1, _⟩ => rfl)
  rw [el, er, v9_ix, v12_ix]

/-- The pre-activation: the zero array plus the first term, plus the second; the zero is the additive identity. -/
theorem v14_ix (x : FVec Ideal S10000x128 .f32) (A : FVec Ideal S2x10000x10000 .f32) (W0 : FVec Ideal S2x128x128 .f32)
    (r : Fin 10000) (j : Fin 128) :
    val_main_v14 (F := Ideal) x A W0 (ix2 r j)
      = (∑ k : Fin 10000, A (ix3 (0 : Fin 2) r k) * Cert.Spec.proj0 x W0 (0 : Fin 2) k j)
        + (∑ k : Fin 10000, A (ix3 (1 : Fin 2) r k) * Cert.Spec.proj0 x W0 (1 : Fin 2) k j) := by
  rw [val_main_v14_apply, val_main_v7_apply, val_main_v0_apply, val_main_cst_apply, v6_ix, v13_ix]
  simp only [Ideal.addf_def, Ideal.ofBits_def, Ideal.ofBits_zero_f32, zero_add]

/-- The hidden activation: the pre-activation clamped below at the zero word. -/
theorem v15_ix (x : FVec Ideal S10000x128 .f32) (A : FVec Ideal S2x10000x10000 .f32) (W0 : FVec Ideal S2x128x128 .f32)
    (r : Fin 10000) (j : Fin 128) :
    val_main_v15 (F := Ideal) x A W0 (ix2 r j) = Cert.Spec.hidden x A W0 r j := by
  rw [val_main_v15_apply, val_main_call0_v0_apply, val_main_call0_cst_apply, v14_ix]
  unfold Cert.Spec.hidden
  simp only [Ideal.maximumf_def, Ideal.ofBits_def]

/-! ## The second layer -/

/-- The hidden activation projected by the second-layer weight of power 0. -/
theorem v21_ix (x : FVec Ideal S10000x128 .f32) (A : FVec Ideal S2x10000x10000 .f32) (W0 : FVec Ideal S2x128x128 .f32)
    (W1 : FVec Ideal S2x128x64 .f32) (r : Fin 10000) (j : Fin 64) :
    val_main_v21 (F := Ideal) x A W0 W1 (ix2 r j) = Cert.Spec.proj1 x A W0 W1 (0 : Fin 2) r j := by
  rw [val_main_v21_apply]
  unfold Cert.Spec.proj1
  refine Finset.sum_congr rfl fun k _ => ?_
  have el : lidx_main_v21 (ix2 r j) k = ix2 r k := funext fun a => Fin.ext (by match a with | ⟨0, _⟩ => rfl | ⟨1, _⟩ => rfl)
  have er : ridx_main_v21 (ix2 r j) k = ix2 k j := funext fun a => Fin.ext (by match a with | ⟨0, _⟩ => rfl | ⟨1, _⟩ => rfl)
  rw [el, er, v15_ix, v20_ix]

/-- The hidden activation projected by the second-layer weight of power 1. -/
theorem v28_ix (x : FVec Ideal S10000x128 .f32) (A : FVec Ideal S2x10000x10000 .f32) (W0 : FVec Ideal S2x128x128 .f32)
    (W1 : FVec Ideal S2x128x64 .f32) (r : Fin 10000) (j : Fin 64) :
    val_main_v28 (F := Ideal) x A W0 W1 (ix2 r j) = Cert.Spec.proj1 x A W0 W1 (1 : Fin 2) r j := by
  rw [val_main_v28_apply]
  unfold Cert.Spec.proj1
  refine Finset.sum_congr rfl fun k _ => ?_
  have el : lidx_main_v28 (ix2 r j) k = ix2 r k := funext fun a => Fin.ext (by match a with | ⟨0, _⟩ => rfl | ⟨1, _⟩ => rfl)
  have er : ridx_main_v28 (ix2 r j) k = ix2 k j := funext fun a => Fin.ext (by match a with | ⟨0, _⟩ => rfl | ⟨1, _⟩ => rfl)
  rw [el, er, v15_ix, v27_ix]

/-- The first adjacency power applied to the projected hidden activation. -/
theorem v22_ix (x : FVec Ideal S10000x128 .f32) (A : FVec Ideal S2x10000x10000 .f32) (W0 : FVec Ideal S2x128x128 .f32)
    (W1 : FVec Ideal S2x128x64 .f32) (r : Fin 10000) (j : Fin 64) :
    val_main_v22 (F := Ideal) x A W0 W1 (ix2 r j)
      = ∑ k : Fin 10000, A (ix3 (0 : Fin 2) r k) * Cert.Spec.proj1 x A W0 W1 (0 : Fin 2) k j := by
  rw [val_main_v22_apply]
  refine Finset.sum_congr rfl fun k _ => ?_
  have el : lidx_main_v22 (ix2 r j) k = ix2 r k := funext fun a => Fin.ext (by match a with | ⟨0, _⟩ => rfl | ⟨1, _⟩ => rfl)
  have er : ridx_main_v22 (ix2 r j) k = ix2 k j := funext fun a => Fin.ext (by match a with | ⟨0, _⟩ => rfl | ⟨1, _⟩ => rfl)
  rw [el, er, v18_ix, v21_ix]

/-- The second adjacency power applied to the projected hidden activation. -/
theorem v29_ix (x : FVec Ideal S10000x128 .f32) (A : FVec Ideal S2x10000x10000 .f32) (W0 : FVec Ideal S2x128x128 .f32)
    (W1 : FVec Ideal S2x128x64 .f32) (r : Fin 10000) (j : Fin 64) :
    val_main_v29 (F := Ideal) x A W0 W1 (ix2 r j)
      = ∑ k : Fin 10000, A (ix3 (1 : Fin 2) r k) * Cert.Spec.proj1 x A W0 W1 (1 : Fin 2) k j := by
  rw [val_main_v29_apply]
  refine Finset.sum_congr rfl fun k _ => ?_
  have el : lidx_main_v29 (ix2 r j) k = ix2 r k := funext fun a => Fin.ext (by match a with | ⟨0, _⟩ => rfl | ⟨1, _⟩ => rfl)
  have er : ridx_main_v29 (ix2 r j) k = ix2 k j := funext fun a => Fin.ext (by match a with | ⟨0, _⟩ => rfl | ⟨1, _⟩ => rfl)
  rw [el, er, v25_ix, v28_ix]

/-- The result at (r, j): the zero array plus the first term, plus the second. -/
theorem v30_ix (x : FVec Ideal S10000x128 .f32) (A : FVec Ideal S2x10000x10000 .f32) (W0 : FVec Ideal S2x128x128 .f32)
    (W1 : FVec Ideal S2x128x64 .f32) (r : Fin 10000) (j : Fin 64) :
    val_main_v30 (F := Ideal) x A W0 W1 (ix2 r j) = Cert.Spec.out x A W0 W1 r j := by
  rw [val_main_v30_apply, val_main_v23_apply, val_main_v16_apply, val_main_cst_0_apply, v22_ix, v29_ix]
  unfold Cert.Spec.out
  simp only [Ideal.addf_def, Ideal.ofBits_def, Ideal.ofBits_zero_f32, zero_add]

/-- The reference's last stage, as a whole array, is the specification's result. -/
theorem result_eq (x : FVec Ideal S10000x128 .f32) (A : FVec Ideal S2x10000x10000 .f32) (W0 : FVec Ideal S2x128x128 .f32)
    (W1 : FVec Ideal S2x128x64 .f32) :
    val_main_v30 (F := Ideal) x A W0 W1 = Cert.Spec.Out x A W0 W1 := by
  funext i
  obtain ⟨r, j, rfl⟩ : ∃ (r : Fin 10000) (j : Fin 64), i = ix2 r j := ⟨i 0, i 1, eq_ix2 i⟩
  exact v30_ix x A W0 W1 r j

/-! ## The run -/

/-- Every weakly fair execution of the reference terminates with its result array at the specification of the argument
    arrays, and the arguments unchanged. -/
theorem run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v30)
        = Cert.Spec.Out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun _ h c => ⟨(h c).1.trans ?_, (h c).2⟩)
    (Cert.ReferenceIdeal.Value.run (F := Ideal) m' g')
  exact (val_main_v30_eq _ _ _ _).trans (result_eq _ _ _ _)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.lean ====
/-
  The certificate of a two-layer polynomial graph convolution,
      out = A_0·(h·W1_0) + A_1·(h·W1_1),   h = max(A_0·(x·W0_0) + A_1·(x·W0_1), 0),
  computed by one kernel launched over 100 grid points against the plain reference.

  The kernel makes two passes over the 50 row blocks of the two adjacency powers. Point 0 stores x·W0_p in a scratch
  buffer; each point t < 50 stores rows 200t … 200t+199 of h in a second scratch; point 50 stores h·W1_p in a third;
  each point t ≥ 50 writes rows 200(t−50) … of the result. The frames (Proof/K/Data.lean at the word-level instance,
  Proof/KI/Data.lean at the ideal one) carry an invariant over the grid points that says which scratch holds what
  before each point; at the ideal instance the contents are the specification's functions of the arguments
  (Proof/KI/Value.lean), and the blocks written back at points 50 … 99 tile the result array. The reference computes the
  same function with a zero summand in front of each sum of two products (Proof/RefValue.lean), and 0 + a = a on the
  extended reals, so the two results agree element by element with no use of the inputs' finiteness. The ideal pass
  rewrote nothing, so the preservation claim is trivial.
-/
import proofs.«117537_g30743375904967_cont_9to1_575_9_alg».proof.Defs
import proofs.«117537_g30743375904967_cont_9to1_575_9_alg».proof.Proof.K.Data
import proofs.«117537_g30743375904967_cont_9to1_575_9_alg».proof.Proof.KI.Value
import proofs.«117537_g30743375904967_cont_9to1_575_9_alg».proof.Proof.RefValue

noncomputable section

namespace Cert.Proof

open Idealize.ShloMosaic Idealize.SL.Sem

/-- The word-level kernel runs to the end, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The ideal pass rewrote no operation. -/
theorem preserves : Cert.preserves_Kernel_KernelIdeal := trivial

/-- From memories agreeing on the arguments both idealized programs end with the result array at the same function
    of the arguments. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩) (Cert.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.RefValue.frame_ri, preserves, algebraic⟩

end Cert.Proof

end
